-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x256 .f32) (main_arg1 : FVec F S256x64 .f32) (main_arg2 : FVec F S64 .f32) (main_arg3 : FVec F S64x32 .f32) (main_arg4 : FVec F S32 .f32) (main_arg5 : IVec S1600000 32) (main_arg6 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S100000x256 : Shape := ⟨2, ![100000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S1600000 : Shape := ⟨1, ![1600000]⟩
abbrev S100000x32 : Shape := ⟨2, ![100000, 32]⟩
abbrev S5000x256 : Shape := ⟨2, ![5000, 256]⟩
abbrev S5000x32 : Shape := ⟨2, ![5000, 32]⟩
abbrev S5000x64 : Shape := ⟨2, ![5000, 64]⟩
abbrev S1x64 : Shape := ⟨2, ![1, 64]⟩
abbrev S1x32 : Shape := ⟨2, ![1, 32]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S1600000x1 : Shape := ⟨2, ![1600000, 1]⟩
abbrev S100000x1 : Shape := ⟨2, ![100000, 1]⟩
abbrev S1600000x32 : Shape := ⟨2, ![1600000, 32]⟩
abbrev S3200000x32 : Shape := ⟨2, ![3200000, 32]⟩
abbrev S8000x32 : Shape := ⟨2, ![8000, 32]⟩
abbrev S8000 : Shape := ⟨1, ![8000]⟩
abbrev S8000x1 : Shape := ⟨2, ![8000, 1]⟩
abbrev S10000x32 : Shape := ⟨2, ![10000, 32]⟩
abbrev S10000 : Shape := ⟨1, ![10000]⟩
abbrev S10000x1 : Shape := ⟨2, ![10000, 1]⟩

abbrev nBuf : Space → Nat
  | .hbm => 150
  | .vmem => 18
  | .smem => 0
  | _ => 0

abbrev hbmTy0_0 (i : Nat) : BufTy := match i % 128 with
  | 0 => ⟨S100000x256, .f32⟩
  | 1 => ⟨S256x64, .f32⟩
  | 2 => ⟨S64, .f32⟩
  | 3 => ⟨S64x32, .f32⟩
  | 4 => ⟨S32, .f32⟩
  | 5 => ⟨S1600000, .i32⟩
  | 6 => ⟨S1600000, .i32⟩
  | 7 => ⟨S100000x32, .f32⟩
  | 8 => ⟨S3200000, .i32⟩
  | 9 => ⟨S3200000, .i32⟩
  | 10 => ⟨S_, .f32⟩
  | 11 => ⟨S3200000, .f32⟩
  | 12 => ⟨S_, .f32⟩
  | 13 => ⟨S100000, .f32⟩
  | 14 => ⟨S3200000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S1600000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000x1, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000, .f32⟩
  | 60 => ⟨S3200000, .f32⟩
  | 61 => ⟨S3200000x1, .f32⟩
  | 62 => ⟨S100000, .f32⟩
  | 63 => ⟨S100000x1, .f32⟩
  | 64 => ⟨S_, .f32⟩
  | 65 => ⟨S1600000x32, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S3200000x32, .f32⟩
  | 75 => ⟨S3200000x32, .f32⟩
  | 76 => ⟨S3200000x32, .f32⟩
  | 77 => ⟨S_, .f32⟩
  | 78 => ⟨S100000x32, .f32⟩
  | 79 => ⟨S3200000x1, .i32⟩
  | 80 => ⟨S100000x32, .f32⟩
  | 81 => ⟨S100000x32, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S_, .f32⟩
  | 88 => ⟨S100000x32, .f32⟩
  | 89 => ⟨S100000x32, .f32⟩
  | 90 => ⟨S100000x32, .f32⟩
  | 91 => ⟨S1600000x32, .f32⟩
  | 92 => ⟨S1600000x32, .f32⟩
  | 93 => ⟨S_, .f32⟩
  | 94 => ⟨S100000x32, .f32⟩
  | 95 => ⟨S1600000x1, .i32⟩
  | 96 => ⟨S100000x32, .f32⟩
  | 97 => ⟨S1600000x32, .f32⟩
  | 98 => ⟨S1600000x32, .f32⟩
  | 99 => ⟨S_, .f32⟩
  | 100 => ⟨S100000x32, .f32⟩
  | 101 => ⟨S1600000x1, .i32⟩
  | 102 => ⟨S100000x32, .f32⟩
  | 103 => ⟨S100000x32, .f32⟩
  | 104 => ⟨S_, .f32⟩
  | 105 => ⟨S100000x32, .f32⟩
  | 106 => ⟨S100000x32, .f32⟩
  | 107 => ⟨S100000x32, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x32, .f32⟩
  | 117 => ⟨S1600000x32, .f32⟩
  | 118 => ⟨S1600000x32, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x32, .f32⟩
  | _ => ⟨S100000x256, .f32⟩

abbrev hbmTy0_1 (i : Nat) : BufTy := match i % 128 with
  | 0 => ⟨S1600000x32, .f32⟩
  | 1 => ⟨S1600000x32, .f32⟩
  | 2 => ⟨S1600000x32, .f32⟩
  | 3 => ⟨S1600000x32, .f32⟩
  | 4 => ⟨S1600000x32, .f32⟩
  | 5 => ⟨S1600000x32, .f32⟩
  | 6 => ⟨S_, .f32⟩
  | 7 => ⟨S100000x32, .f32⟩
  | 8 => ⟨S1600000x1, .i32⟩
  | 9 => ⟨S100000x32, .f32⟩
  | 10 => ⟨S1600000x32, .f32⟩
  | 11 => ⟨S1600000x32, .f32⟩
  | 12 => ⟨S_, .f32⟩
  | 13 => ⟨S100000x32, .f32⟩
  | 14 => ⟨S1600000x1, .i32⟩
  | 15 => ⟨S100000x32, .f32⟩
  | 16 => ⟨S100000x32, .f32⟩
  | 17 => ⟨S_, .f32⟩
  | 18 => ⟨S100000x32, .f32⟩
  | 19 => ⟨S100000x32, .f32⟩
  | 20 => ⟨S100000x32, .f32⟩
  | 21 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S64, .f32⟩
  | .local _ .vmem, ⟨4, _⟩ => ⟨S64x32, .f32⟩
  | .local _ .vmem, ⟨5, _⟩ => ⟨S32, .f32⟩
  | .local _ .vmem, ⟨6, _⟩ => ⟨S5000x32, .f32⟩
  | .local _ .vmem, ⟨7, _⟩ => ⟨S5000x32, .f32⟩
  | .local _ .vmem, ⟨8, _⟩ => ⟨S8000x32, .f32⟩
  | .local _ .vmem, ⟨9, _⟩ => ⟨S8000x32, .f32⟩
  | .local _ .vmem, ⟨10, _⟩ => ⟨S8000x32, .f32⟩
  | .local _ .vmem, ⟨11, _⟩ => ⟨S8000x32, .f32⟩
  | .local _ .vmem, ⟨12, _⟩ => ⟨S8000x32, .f32⟩
  | .local _ .vmem, ⟨13, _⟩ => ⟨S8000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_18 : Ref sig .tc := ⟨.hbm, 108, rfl⟩
abbrev main_v81 : Ref sig .tc := ⟨.hbm, 109, rfl⟩
abbrev main_v82 : Ref sig .tc := ⟨.hbm, 110, rfl⟩
abbrev main_c_19 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_20 : Ref sig .tc := ⟨.hbm, 119, rfl⟩
abbrev main_v90 : Ref sig .tc := ⟨.hbm, 120, rfl⟩
abbrev main_v91 : Ref sig .tc := ⟨.hbm, 121, rfl⟩
abbrev main_c_21 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_22 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_23 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_24 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  concatenates_S1600000_S1600000_S3200000_d0 : Shape.Concatenates [S1600000, S1600000] S3200000 0
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S1600000x32 : S_.BroadcastsInDim S1600000x32 (![] : Fin 0 → Fin S1600000x32.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S1600000x1_S1600000x32_0_1 : S1600000x1.BroadcastsInDim S1600000x32 (![0, 1] : Fin 2 → Fin S1600000x32.rank)
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  reduces_S8000x32_S8000 : S8000x32.Reduces [1] S8000
  shapeCasts_S8000_S8000x1 : S8000.ShapeCasts S8000x1
  broadcasts_S8000x1_S8000x32 : S8000x1.Broadcasts S8000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  reduces_S10000x32_S10000 : S10000x32.Reduces [1] S10000
  shapeCasts_S10000_S10000x1 : S10000.ShapeCasts S10000x1
  broadcasts_S10000x1_S10000x32 : S10000x1.Broadcasts S10000x32
  dot_S5000x256_S256x64_S5000x64_1_0_0_1_n_n_wf : DotDims.WF S5000x256 S256x64 S5000x64 [1] [0] [0] [1] [] []
  dot_S5000x64_S64x32_S5000x32_1_0_0_1_n_n_wf : DotDims.WF S5000x64 S64x32 S5000x32 [1] [0] [0] [1] [] []
  scatter_S100000_S3200000x1_S3200000_n_0_0_1_wf : ScatterDims.WF S100000 S3200000x1 S3200000 [] [0] [0] 1
  gather_S100000_S1600000x1_S1600000_n_0_n_n_0_1_1_wf : GatherDims.WF S100000 S1600000x1 S1600000 [] [0] [] [0] [] 1 ![1]
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000x32_S1600000x1_S1600000x32_1_0_0_1_wf : ScatterDims.WF S100000x32 S1600000x1 S1600000x32 [1] [0] [0] 1
  gather_S100000x32_S1600000x1_S1600000x32_1_0_n_n_0_1_132_wf : GatherDims.WF S100000x32 S1600000x1 S1600000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S1600000x32.size a
  hwx1_1 : ∀ i : grid1.Coords, EltTy.bits .f32 = 32 ∨ (Rect.block (s := S1600000x32) S8000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x32.size a ≤ S1600000x32.size a
  hwx1_2 : ∀ i : grid1.Coords, EltTy.bits .f32 = 32 ∨ (Rect.block (s := S1600000x32) S8000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v100) S8000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v114) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v115) S10000x32.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S100000x32 : Shape := ⟨2, ![100000, 32]⟩
abbrev S1x32 : Shape := ⟨2, ![1, 32]⟩
abbrev S3200000 : Shape := ⟨1, ![3200000]⟩
abbrev S100000 : Shape := ⟨1, ![100000]⟩
abbrev S3200000x1 : Shape := ⟨2, ![3200000, 1]⟩
abbrev S1600000x1 : Shape := ⟨2, ![1600000, 1]⟩
abbrev S100000x1 : Shape := ⟨2, ![100000, 1]⟩
abbrev S1600000x32 : Shape := ⟨2, ![1600000, 32]⟩
abbrev S3200000x32 : Shape := ⟨2, ![3200000, 32]⟩

abbrev nBuf : Space → Nat
  | .hbm => 195
  | .vmem => 0
  | .smem => 0
  | _ => 0

abbrev hbmTy0_0 (i : Nat) : BufTy := match i % 128 with
  | 0 => ⟨S100000x256, .f32⟩
  | 1 => ⟨S256x64, .f32⟩
  | 2 => ⟨S64, .f32⟩
  | 3 => ⟨S64x32, .f32⟩
  | 4 => ⟨S32, .f32⟩
  | 5 => ⟨S1600000, .i32⟩
  | 6 => ⟨S1600000, .i32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S100000x32, .f32⟩
  | 15 => ⟨S1x32, .f32⟩
  | 16 => ⟨S100000x32, .f32⟩
  | 17 => ⟨S100000x32, .f32⟩
  | 18 => ⟨S3200000, .i32⟩
  | 19 => ⟨S3200000, .i32⟩
  | 20 => ⟨S_, .f32⟩
  | 21 => ⟨S3200000, .f32⟩
  | 22 => ⟨S_, .f32⟩
  | 23 => ⟨S100000, .f32⟩
  | 24 => ⟨S3200000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000x1, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000x1, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000, .f32⟩
  | 70 => ⟨S3200000, .f32⟩
  | 71 => ⟨S3200000x1, .f32⟩
  | 72 => ⟨S100000, .f32⟩
  | 73 => ⟨S100000x1, .f32⟩
  | 74 => ⟨S_, .f32⟩
  | 75 => ⟨S1600000x32, .f32⟩
  | 76 => ⟨S_, .i32⟩
  | 77 => ⟨S3200000, .i32⟩
  | 78 => ⟨S3200000, .i1⟩
  | 79 => ⟨S_, .i32⟩
  | 80 => ⟨S3200000, .i32⟩
  | 81 => ⟨S3200000, .i32⟩
  | 82 => ⟨S3200000, .i32⟩
  | 83 => ⟨S3200000x1, .i32⟩
  | 84 => ⟨S3200000x32, .f32⟩
  | 85 => ⟨S3200000x32, .f32⟩
  | 86 => ⟨S3200000x32, .f32⟩
  | 87 => ⟨S_, .f32⟩
  | 88 => ⟨S100000x32, .f32⟩
  | 89 => ⟨S3200000x1, .i32⟩
  | 90 => ⟨S100000x32, .f32⟩
  | 91 => ⟨S100000x32, .f32⟩
  | 92 => ⟨S100000x32, .f32⟩
  | 93 => ⟨S100000x32, .f32⟩
  | 94 => ⟨S_, .f32⟩
  | 95 => ⟨S100000x32, .f32⟩
  | 96 => ⟨S100000x32, .f32⟩
  | 97 => ⟨S_, .f32⟩
  | 98 => ⟨S100000x32, .f32⟩
  | 99 => ⟨S100000x32, .f32⟩
  | 100 => ⟨S100000x32, .f32⟩
  | 101 => ⟨S1600000x32, .f32⟩
  | 102 => ⟨S1600000x32, .f32⟩
  | 103 => ⟨S_, .f32⟩
  | 104 => ⟨S100000x32, .f32⟩
  | 105 => ⟨S1600000x1, .i32⟩
  | 106 => ⟨S100000x32, .f32⟩
  | 107 => ⟨S1600000x32, .f32⟩
  | 108 => ⟨S1600000x32, .f32⟩
  | 109 => ⟨S_, .f32⟩
  | 110 => ⟨S100000x32, .f32⟩
  | 111 => ⟨S1600000x1, .i32⟩
  | 112 => ⟨S100000x32, .f32⟩
  | 113 => ⟨S100000x32, .f32⟩
  | 114 => ⟨S_, .f32⟩
  | 115 => ⟨S100000x32, .f32⟩
  | 116 => ⟨S100000x32, .f32⟩
  | 117 => ⟨S100000x32, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x32, .f32⟩
  | 127 => ⟨S1600000x32, .f32⟩
  | _ => ⟨S100000x256, .f32⟩

abbrev hbmTy0_1 (i : Nat) : BufTy := match i % 128 with
  | 0 => ⟨S1600000x32, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x32, .f32⟩
  | 10 => ⟨S1600000x32, .f32⟩
  | 11 => ⟨S1600000x32, .f32⟩
  | 12 => ⟨S1600000x32, .f32⟩
  | 13 => ⟨S_, .f32⟩
  | 14 => ⟨S1600000x32, .f32⟩
  | 15 => ⟨S1600000x32, .f32⟩
  | 16 => ⟨S1600000x32, .f32⟩
  | 17 => ⟨S1600000x32, .f32⟩
  | 18 => ⟨S_, .f32⟩
  | 19 => ⟨S1600000, .f32⟩
  | 20 => ⟨S1600000, .f32⟩
  | 21 => ⟨S_, .f32⟩
  | 22 => ⟨S1600000, .f32⟩
  | 23 => ⟨S1600000, .f32⟩
  | 24 => ⟨S_, .f32⟩
  | 25 => ⟨S1600000, .f32⟩
  | 26 => ⟨S1600000, .i1⟩
  | 27 => ⟨S_, .f32⟩
  | 28 => ⟨S_, .f32⟩
  | 29 => ⟨S1600000, .f32⟩
  | 30 => ⟨S1600000, .f32⟩
  | 31 => ⟨S1600000, .f32⟩
  | 32 => ⟨S1600000x1, .f32⟩
  | 33 => ⟨S1600000x32, .f32⟩
  | 34 => ⟨S1600000x32, .f32⟩
  | 35 => ⟨S1600000x32, .f32⟩
  | 36 => ⟨S1600000x32, .f32⟩
  | 37 => ⟨S_, .f32⟩
  | 38 => ⟨S100000x32, .f32⟩
  | 39 => ⟨S1600000x1, .i32⟩
  | 40 => ⟨S100000x32, .f32⟩
  | 41 => ⟨S1600000x32, .f32⟩
  | 42 => ⟨S1600000x32, .f32⟩
  | 43 => ⟨S_, .f32⟩
  | 44 => ⟨S100000x32, .f32⟩
  | 45 => ⟨S1600000x1, .i32⟩
  | 46 => ⟨S100000x32, .f32⟩
  | 47 => ⟨S100000x32, .f32⟩
  | 48 => ⟨S_, .f32⟩
  | 49 => ⟨S100000x32, .f32⟩
  | 50 => ⟨S100000x32, .f32⟩
  | 51 => ⟨S100000x32, .f32⟩
  | 52 => ⟨S_, .f32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x32, .f32⟩
  | 59 => ⟨S100000x32, .f32⟩
  | 60 => ⟨S100000x32, .f32⟩
  | 61 => ⟨S_, .f32⟩
  | 62 => ⟨S100000, .f32⟩
  | 63 => ⟨S100000x1, .f32⟩
  | 64 => ⟨S100000x1, .f32⟩
  | 65 => ⟨S100000x32, .f32⟩
  | 66 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_18 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_19 : Ref sig .tc := ⟨.hbm, 118, rfl⟩
abbrev main_v90 : Ref sig .tc := ⟨.hbm, 119, rfl⟩
abbrev main_v91 : Ref sig .tc := ⟨.hbm, 120, rfl⟩
abbrev main_c_20 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_21 : Ref sig .tc := ⟨.hbm, 129, rfl⟩
abbrev main_v99 : Ref sig .tc := ⟨.hbm, 130, rfl⟩
abbrev main_v100 : Ref sig .tc := ⟨.hbm, 131, rfl⟩
abbrev main_c_22 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_23 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_call0_v0 : Ref sig .tc := ⟨.hbm, 145, rfl⟩
abbrev main_call0_cst : Ref sig .tc := ⟨.hbm, 146, rfl⟩
abbrev main_call0_v1 : Ref sig .tc := ⟨.hbm, 147, rfl⟩
abbrev main_v112 : Ref sig .tc := ⟨.hbm, 148, rfl⟩
abbrev main_cst_24 : Ref sig .tc := ⟨.hbm, 149, rfl⟩
abbrev main_v113 : Ref sig .tc := ⟨.hbm, 150, rfl⟩
abbrev main_v114 : Ref sig .tc := ⟨.hbm, 151, rfl⟩
abbrev main_cst_25 : Ref sig .tc := ⟨.hbm, 152, rfl⟩
abbrev main_v115 : Ref sig .tc := ⟨.hbm, 153, rfl⟩
abbrev main_v116 : Ref sig .tc := ⟨.hbm, 154, rfl⟩
abbrev main_cst_26 : Ref sig .tc := ⟨.hbm, 155, rfl⟩
abbrev main_call1_v0 : Ref sig .tc := ⟨.hbm, 156, rfl⟩
abbrev main_call1_v1 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_27 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_28 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_29 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_call2_cst : Ref sig .tc := ⟨.hbm, 180, rfl⟩
abbrev main_call2_v0 : Ref sig .tc := ⟨.hbm, 181, rfl⟩
abbrev main_call2_cst_0 : Ref sig .tc := ⟨.hbm, 182, rfl⟩
abbrev main_call2_v1 : Ref sig .tc := ⟨.hbm, 183, rfl⟩
abbrev main_call2_v2 : Ref sig .tc := ⟨.hbm, 184, rfl⟩
abbrev main_call2_v3 : Ref sig .tc := ⟨.hbm, 185, rfl⟩
abbrev main_call2_v4 : Ref sig .tc := ⟨.hbm, 186, rfl⟩
abbrev main_call2_v5 : Ref sig .tc := ⟨.hbm, 187, rfl⟩
abbrev main_call2_v6 : Ref sig .tc := ⟨.hbm, 188, rfl⟩
abbrev main_call2_cst_1 : Ref sig .tc := ⟨.hbm, 189, rfl⟩
abbrev main_call2_v7 : Ref sig .tc := ⟨.hbm, 190, rfl⟩
abbrev main_call2_v8 : Ref sig .tc := ⟨.hbm, 191, rfl⟩
abbrev main_call2_v9 : Ref sig .tc := ⟨.hbm, 192, rfl⟩
abbrev main_call2_v10 : Ref sig .tc := ⟨.hbm, 193, rfl⟩
abbrev main_v136 : Ref sig .tc := ⟨.hbm, 194, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S1600000_S1600000_S3200000_d0 : Shape.Concatenates [S1600000, S1600000] S3200000 0
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S1600000x32 : S_.BroadcastsInDim S1600000x32 (![] : Fin 0 → Fin S1600000x32.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S1600000x1_S1600000x32_0_1 : S1600000x1.BroadcastsInDim S1600000x32 (![0, 1] : Fin 2 → Fin S1600000x32.rank)
  reducesTo_S1600000x32_S1600000_d1 : S1600000x32.ReducesTo [1] S1600000
  h_S_ : 0 < S_.numel
  reducesTo_S100000x32_S100000_d1 : S100000x32.ReducesTo [1] S100000
  dot_S100000x256_S256x64_S100000x64_1_0_0_1_n_n_wf : DotDims.WF S100000x256 S256x64 S100000x64 [1] [0] [0] [1] [] []
  dot_S100000x64_S64x32_S100000x32_1_0_0_1_n_n_wf : DotDims.WF S100000x64 S64x32 S100000x32 [1] [0] [0] [1] [] []
  scatter_S100000_S3200000x1_S3200000_n_0_0_1_wf : ScatterDims.WF S100000 S3200000x1 S3200000 [] [0] [0] 1
  gather_S100000_S1600000x1_S1600000_n_0_n_n_0_1_1_wf : GatherDims.WF S100000 S1600000x1 S1600000 [] [0] [] [0] [] 1 ![1]
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000x32_S1600000x1_S1600000x32_1_0_0_1_wf : ScatterDims.WF S100000x32 S1600000x1 S1600000x32 [1] [0] [0] 1
  gather_S100000x32_S1600000x1_S1600000x32_1_0_n_n_0_1_132_wf : GatherDims.WF S100000x32 S1600000x1 S1600000x32 [1] [0] [] [0] [] 1 ![1, 32]

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf

class Facts : Prop extends Facts₀ where

variable [Facts]
-- ==== Proof.RunNamed.lean ====
/-
  The kernel program's run with its result named.

  The program is three kernel regions among two stretches of host operations. Its run ends with every buffer the
  TensorCore holds at the last boundary's contents: the launch memory folded through region 0's write-backs, the
  first host stretch, region 1's write-backs, the second host stretch and region 2's write-backs (`Gen.W5`). Read
  at the result buffer this is the result's final contents; read at an argument it is the launch contents, since
  nothing writes an argument.
-/
import proofs.«137047_j59021440582159_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v115) = W5 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v115 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.RunNamed

end
-- ==== Proof.Spec.lean ====
/-
  The three dense stages of the computation, each as one function of its input arrays, written with the
  reference program's own operations.

  `mlp`: the encoder, relu (feat · W1 + b1) · W2 + b2 over 100000 rows.
  `l21`: z̄ = z + 2·δ, then every row of z̄ scaled by min (‖row‖, 3) / (‖row‖ if ‖row‖ > 0, else 1), ‖row‖ the square
  root of the sum of the row's 32 squares — the projection of each row onto the ball of radius 3.
  `logSoftmax`: every row shifted by its maximum, then by the logarithm of the sum of the exponentials of the shifted row.
-/
import proofs.«137047_j59021440582159_1_alg».proof.ReferenceIdeal
import proofs.«137047_j59021440582159_1_alg».proof.Proof.Gen.ReferenceIdeal

noncomputable section

namespace Cert.Spec

open Cert.ReferenceIdeal Cert.ReferenceIdeal.Gen Idealize.ShloMosaic

variable {F : FTy → Type} [FloatOps F]

/-- The encoder: two matrix products, a bias row added after each, a maximum with zero between them. -/
def mlp (x0 : (⟨S100000x256, .f32⟩ : BufTy).Contents (Elt F)) (x1 : (⟨S256x64, .f32⟩ : BufTy).Contents (Elt F))
    (x2 : (⟨S64, .f32⟩ : BufTy).Contents (Elt F)) (x3 : (⟨S64x32, .f32⟩ : BufTy).Contents (Elt F))
    (x4 : (⟨S32, .f32⟩ : BufTy).Contents (Elt F)) : (⟨S100000x32, .f32⟩ : BufTy).Contents (Elt F) :=
  addf (Host.dotGeneral dot_S100000x64_S64x32_S100000x32_1_0_0_1_n_n none
      (maximumf (addf (Host.dotGeneral dot_S100000x256_S256x64_S100000x64_1_0_0_1_n_n none x0 x1)
          (broadcastInDim S100000x64 ![0, 1] bcast_S1x64_S100000x64_0_1 (broadcastInDim S1x64 ![1] bcast_S64_S1x64_1 x2)))
        (broadcastInDim S100000x64 ![] bcast_S_S100000x64 (constant S_ .f32 0x00000000#32))) x3)
    (broadcastInDim S100000x32 ![0, 1] bcast_S1x32_S100000x32_0_1 (broadcastInDim S1x32 ![1] bcast_S32_S1x32_1 x4))

/-- z̄ = z + 2·δ. -/
def zbar (z d : (⟨S1600000x32, .f32⟩ : BufTy).Contents (Elt F)) : (⟨S1600000x32, .f32⟩ : BufTy).Contents (Elt F) :=
  addf z (mulf (broadcastInDim S1600000x32 ![] bcast_S_S1600000x32 (constant S_ .f32 0x40000000#32)) d)

/-- The rows' Euclidean norms. -/
def rowNorm (zb : (⟨S1600000x32, .f32⟩ : BufTy).Contents (Elt F)) : (⟨S1600000, .f32⟩ : BufTy).Contents (Elt F) :=
  Host.sqrt (Host.reduceAdd (mulf zb zb) (constant S_ .f32 0x00000000#32) reducesTo_S1600000x32_S1600000_d1 h_S_)

/-- The rows' scale factors min (n, 3) / (n if n > 0, else 1). -/
def rowScale (rn : (⟨S1600000, .f32⟩ : BufTy).Contents (Elt F)) : (⟨S1600000, .f32⟩ : BufTy).Contents (Elt F) :=
  Host.divf (minimumf rn (broadcastInDim S1600000 ![] bcast_S_S1600000 (constant S_ .f32 0x40400000#32)))
    (select (cmpf .ogt rn (broadcastInDim S1600000 ![] bcast_S_S1600000 (constant S_ .f32 0x00000000#32))) rn
      (broadcastInDim S1600000 ![] bcast_S_S1600000 (id (constant S_ .f32 0x3F800000#32))))

/-- The row projection of z + 2·δ. -/
def l21 (z d : (⟨S1600000x32, .f32⟩ : BufTy).Contents (Elt F)) : (⟨S1600000x32, .f32⟩ : BufTy).Contents (Elt F) :=
  mulf (zbar z d) (broadcastInDim S1600000x32 ![0, 1] bcast_S1600000x1_S1600000x32_0_1
    (broadcastInDim S1600000x1 ![0] bcast_S1600000_S1600000x1_0 (rowScale (rowNorm (zbar z d)))))

/-- Every row shifted by its maximum. -/
def shifted (x : (⟨S100000x32, .f32⟩ : BufTy).Contents (Elt F)) : (⟨S100000x32, .f32⟩ : BufTy).Contents (Elt F) :=
  subf x (broadcastInDim S100000x32 ![0, 1] bcast_S100000x1_S100000x32_0_1 (broadcastInDim S100000x1 ![0] bcast_S100000_S100000x1_0
    (maximumf (broadcastInDim S100000 ![] bcast_S_S100000 (constant S_ .f32 0xFF800000#32))
      (Host.reduce FloatOps.maximumf x (constant S_ .f32 0xFF800000#32) reducesTo_S100000x32_S100000_d1 h_S_))))

/-- The row-wise logarithm of the softmax. -/
def logSoftmax (x : (⟨S100000x32, .f32⟩ : BufTy).Contents (Elt F)) : (⟨S100000x32, .f32⟩ : BufTy).Contents (Elt F) :=
  subf (shifted x) (broadcastInDim S100000x32 ![0, 1] bcast_S100000x1_S100000x32_0_1
    (Host.log (broadcastInDim S100000x1 ![0] bcast_S100000_S100000x1_0
      (Host.reduceAdd (Host.exp (shifted x)) (constant S_ .f32 0x00000000#32) reducesTo_S100000x32_S100000_d1 h_S_))))

end Cert.Spec

end
-- ==== Proof.RefStages.lean ====
/-
  The reference program's run, stage by stage.

  The reference's @main is one list of host operations. Cut at four places it is five stages: the encoder
  (operations 0–10), the graph propagation up to the edge quantity δ (11–133), the row projection of z + 2·δ
  (134–155), the propagation of the projected z back to the nodes (156–172), and the row-wise log-softmax
  (173–187). The memory after the whole list is the memory after the five stages in turn. The three dense stages
  are read here as functions of the buffers they start from (`Cert.Spec`); the two propagation stages are shared
  with the kernel program and are compared with it as they stand, never opened.
-/
import proofs.«137047_j59021440582159_1_alg».proof.Proof.RefOps
import proofs.«137047_j59021440582159_1_alg».proof.Proof.Spec
import Idealize.ShloMosaic.Lib.Pipeline.Frame
import Idealize.ShloMosaic.Lib.StableHlo.Run

noncomputable section

namespace Cert.ReferenceIdeal.Stages

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The encoder's operations. -/
abbrev opsA : List (HloOp τ sig (Elt F)) := (ops (F := F)).take 11
/-- The propagation up to δ. -/
abbrev opsB : List (HloOp τ sig (Elt F)) := ((ops (F := F)).drop 11).take 123
/-- The row projection. -/
abbrev opsC : List (HloOp τ sig (Elt F)) := (((ops (F := F)).drop 11).drop 123).take 22
/-- The propagation of the projected rows back to the nodes. -/
abbrev opsD : List (HloOp τ sig (Elt F)) := ((((ops (F := F)).drop 11).drop 123).drop 22).take 17
/-- The log-softmax. -/
abbrev opsE : List (HloOp τ sig (Elt F)) := ((((ops (F := F)).drop 11).drop 123).drop 22).drop 17

/-- The memory after the whole list is the memory after the five stages in turn. -/
theorem after_split (M : Valuation τ sig (Elt F)) :
    after (ops (F := F)) M = after opsE (after opsD (after opsC (after opsB (after opsA M)))) := by
  simp only [opsA, opsB, opsC, opsD, opsE, ← StableHlo.after_append, List.append_assoc, List.take_append_drop]

/-! ## The encoder -/

set_option maxRecDepth 16384 in
theorem stageA_x (M : Valuation τ sig (Elt F)) :
    after opsA M (Proc.devRef .tc main_v9)
      = Cert.Spec.mlp (F := F) (M (Proc.devRef .tc main_arg0)) (M (Proc.devRef .tc main_arg1)) (M (Proc.devRef .tc main_arg2))
          (M (Proc.devRef .tc main_arg3)) (M (Proc.devRef .tc main_arg4)) := by
  simp only [opsA, ops, List.take_succ_cons, List.take_zero]
  after_results_simp
  rfl

set_option maxRecDepth 16384 in
theorem stageA_arg5 (M : Valuation τ sig (Elt F)) :
    after opsA M (Proc.devRef .tc main_arg5) = M (Proc.devRef .tc main_arg5) := by
  simp only [opsA, ops, List.take_succ_cons, List.take_zero]
  after_results_simp <;> rfl

set_option maxRecDepth 16384 in
theorem stageA_arg6 (M : Valuation τ sig (Elt F)) :
    after opsA M (Proc.devRef .tc main_arg6) = M (Proc.devRef .tc main_arg6) := by
  simp only [opsA, ops, List.take_succ_cons, List.take_zero]
  after_results_simp <;> rfl

/-! ## The row projection -/

set_option maxRecDepth 16384 in
set_option maxHeartbeats 2000000 in
theorem stageC_z (M : Valuation τ sig (Elt F)) :
    after opsC M (Proc.devRef .tc main_v121)
      = Cert.Spec.l21 (F := F) (M (Proc.devRef .tc main_v55)) (M (Proc.devRef .tc main_v108)) := by
  simp only [opsC, ops, List.take_succ_cons, List.take_zero, List.drop_succ_cons, List.drop_zero]
  after_results_simp
  rfl

set_option maxRecDepth 16384 in
set_option maxHeartbeats 2000000 in
/-- The projection writes none of the buffers the later propagation reads besides its own result. -/
theorem stageC_kept (M : Valuation τ sig (Elt F)) :
    after opsC M (Proc.devRef .tc main_v28) = M (Proc.devRef .tc main_v28)
    ∧ after opsC M (Proc.devRef .tc main_v36) = M (Proc.devRef .tc main_v36)
    ∧ after opsC M (Proc.devRef .tc main_v19) = M (Proc.devRef .tc main_v19)
    ∧ after opsC M (Proc.devRef .tc main_v20) = M (Proc.devRef .tc main_v20)
    ∧ after opsC M (Proc.devRef .tc main_v75) = M (Proc.devRef .tc main_v75) := by
  simp only [opsC, ops, List.take_succ_cons, List.take_zero, List.drop_succ_cons, List.drop_zero]
  refine ⟨?_, ?_, ?_, ?_, ?_⟩ <;> (after_results_simp <;> rfl)

/-! ## The log-softmax

The log-softmax is a called function: its operations address their buffers through typed references, which carry
contents to a buffer's own type and back along an equation of types. Those transports are identities. -/

/-- Contents carried to a typed reference's buffer and back are the contents. -/
theorem ofBuf_toBuf {sg : RefSig} {T : BufTy} {Val : EltTy → Type} (x : TRef sg T) (v : T.Contents Val) :
    x.ofBuf (x.toBuf v) = v := by
  obtain ⟨r, rfl, _, _⟩ := x
  rfl

/-- Reading the log-softmax's argument buffer at its value type is reading it. -/
theorem ofBuf_v135 (M : Valuation τ sig (Elt F)) (h1 h2 h3) :
    ((TRef.mk (T := ⟨S100000x32, .f32⟩) main_v135 h1 h2 h3).ofBuf (M (Proc.devRef .tc main_v135)) : (⟨S100000x32, .f32⟩ : BufTy).Contents (Elt F))
      = M (Proc.devRef .tc main_v135) := rfl

/-- Writing the result buffer at its value type is writing it. -/
theorem toBuf_v136 (v : (⟨S100000x32, .f32⟩ : BufTy).Contents (Elt F)) (h1 h2 h3) :
    ((TRef.mk (T := ⟨S100000x32, .f32⟩) main_v136 h1 h2 h3).toBuf v : (Proc.devRef (τ := τ) .tc main_v136).ty.Contents (Elt F)) = v := rfl

set_option maxRecDepth 16384 in
set_option maxHeartbeats 2000000 in
theorem stageE_out (M : Valuation τ sig (Elt F)) :
    after opsE M (Proc.devRef .tc main_v136) = Cert.Spec.logSoftmax (F := F) (M (Proc.devRef .tc main_v135)) := by
  simp only [opsE, ops, List.drop_succ_cons, List.drop_zero]
  after_results_simp
  simp only [ofBuf_toBuf, ofBuf_v135, toBuf_v136]
  rfl

/-! ## The run -/

set_option maxRecDepth 16384 in
set_option maxHeartbeats 8000000 in
/-- Every weakly fair execution of the reference's @main terminates, nothing faulting, with the result buffer at the
    memory after the whole list of operations from the launch contents, and the arguments unchanged. -/
theorem run_after (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v136) = after (ops (F := F)) (launchContents m c) (Proc.devRef .tc main_v136)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v136,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.Stages

end
-- ==== Proof.LibPlainDot.lean ====
/-
  A plain two-dimensional matrix product read at an index, at the ideal values.

  For a dot of an `[M, K]` table with a `[K, N]` table that contracts the left operand's last axis with the right
  operand's first and has no batch axis, the element `(p, q)` of the product is `Σ_{k < K} l[p, k] · r[k, q]`:
  for the host's `dot_general`, and for a kernel's `tpu.matmul` into the zero accumulator. The record's contraction
  index (a one-axis multi-index) is re-indexed over `Fin K`. The hypotheses are the facts about the dimension record
  that a literal record gives by computation: the contraction shape is one axis of extent `K`; the contracted axes
  are `1` on the left and `0` on the right; the left operand's row and the right operand's column are the result's.
-/
import Idealize.ShloMosaic.PureOps.Ideal.Laws
import Idealize.ShloMosaic.Lib.ValueIdx

noncomputable section

namespace Cert.PlainDot

open Idealize.ShloMosaic Idealize.ShloMosaic.ValueIdx

variable {M K N : Nat} (d : DotDims ⟨2, ![M, K]⟩ ⟨2, ![K, N]⟩ ⟨2, ![M, N]⟩)

/-- The sum over the record's contraction index is the sum over `k < K` of the row's entry times the column's. -/
theorem sum_contr (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- The host's `dot_general` at `(p, q)`. -/
theorem dotGeneral_apply {φ₁ φ₂ : FTy} (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_contr d hr hs hlc hrc hl0 hr1 l r p q)

/-- A kernel's `tpu.matmul` into the zero splat at `(p, q)`. -/
theorem matmul_zero_apply {φ₁ φ₂ : FTy} (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) :=
  (Ideal.matmul_constant_zero_apply d prec l r (ix2 p q)).trans (sum_contr d hr hs hlc hrc hl0 hr1 l r p q)

end Cert.PlainDot

end
-- ==== Proof.RegionMlp.lean ====
/-
  The encoder region: after the region, its output array is the encoder of the argument arrays.

  The region runs over 20 points. Point `t` reads rows `5000 t … 5000 t + 4999` of the features `[100000, 256]` and the
  whole of the two weight tables `[256, 64]`, `[64, 32]` and the two biases `[64]`, `[32]`, and writes rows
  `5000 t … 5000 t + 4999` of the result `[100000, 32]`. Its body computes, for row `p` of the block and column `q`,

      Σ_k max (Σ_a x[p, a] · W1[a, k] + b1[k], 0) · W2[k, q] + b2[q]

  (the format changes around the two products are the identity on the extended reals; each product starts from the zero
  accumulator). The reference's encoder has the same element at row `r` and column `q` of the whole arrays. So the
  block point `t` writes is block `t` of the reference's encoder, and since row `r` lies in the block of point
  `r / 5000`, the blocks cover the array.

  Sections: one element of the encoder (`enc`); the body read at an index (`pay_apply`); the reference's stage read
  at an index (`mlp_apply`); from blocks to the array (`flushed_eq`, `cover`, `mlp_arr`).
-/
import proofs.«137047_j59021440582159_1_alg».proof.Proof.Gen.KernelIdeal.Frame
import proofs.«137047_j59021440582159_1_alg».proof.Proof.Spec
import proofs.«137047_j59021440582159_1_alg».proof.Proof.LibPlainDot
import Idealize.ShloMosaic.PureOps.Ideal
import Idealize.ShloMosaic.Lib.ValueLayout
import Idealize.ShloMosaic.Lib.Pipeline.Value

noncomputable section

namespace Cert.KernelIdeal.RegionMlp

open Cert.KernelIdeal Idealize.ShloMosaic Idealize.ShloMosaic.TcCoe Idealize.SL.Sem
open Idealize.ShloMosaic.ValueIdx

/-- One element of the encoder: from a row of 256 features, the weights and the biases, the value at output column `q`,
    Σ_k max (Σ_a row a · W1[a,k] + b1[k], 0) · W2[k,q] + b2[q]. -/
def enc (row : Fin 256 → EReal) (W1 : (⟨2, ![256, 64]⟩ : Shape).Idx → EReal) (b1 : (⟨1, ![64]⟩ : Shape).Idx → EReal)
    (W2 : (⟨2, ![64, 32]⟩ : Shape).Idx → EReal) (b2 : (⟨1, ![32]⟩ : Shape).Idx → EReal) (q : Fin 32) : EReal :=
  ∑ k : Fin 64, max (∑ a : Fin 256, row a * W1 (ix2 a k) + b1 (ix1 k)) 0 * W2 (ix2 k q) + b2 (ix1 q)

/-! ## The kernel's body at an index -/

/-- The kernel's first product at row `p` and column `k`: the block's row against the weights' column. -/
theorem kdot1_apply (l : FVec Ideal S5000x256 .bf16) (r : FVec Ideal S256x64 .bf16) (p : Fin 5000) (k : Fin 64) :
    matmul dot_S5000x256_S256x64_S5000x64_1_0_0_1_n_n none l r (constant S5000x64 .f32 0x00000000#32) (ix2 p k)
      = ∑ a : Fin 256, l (ix2 p a) * r (ix2 a k) :=
  Cert.PlainDot.matmul_zero_apply (M := 5000) (K := 256) (N := 64) dot_S5000x256_S256x64_S5000x64_1_0_0_1_n_n rfl rfl rfl rfl
    (fun j q => by
      unfold DotDims.lhsIdx
      rw [dif_neg (show ¬(⟨0, Nat.zero_lt_two⟩ : Fin 2) ∈ dot_S5000x256_S256x64_S5000x64_1_0_0_1_n_n.lhsBatch by decide),
        dif_pos (show (⟨0, Nat.zero_lt_two⟩ : Fin 2) ∈ dot_S5000x256_S256x64_S5000x64_1_0_0_1_n_n.lhsNonContracting by decide)]
      rfl)
    (fun j q => by
      unfold DotDims.rhsIdx
      rw [dif_neg (show ¬(⟨1, Nat.one_lt_two⟩ : Fin 2) ∈ dot_S5000x256_S256x64_S5000x64_1_0_0_1_n_n.rhsBatch by decide),
        dif_pos (show (⟨1, Nat.one_lt_two⟩ : Fin 2) ∈ dot_S5000x256_S256x64_S5000x64_1_0_0_1_n_n.rhsNonContracting by decide)]
      rfl)
    none l r p k

/-- The kernel's second product at row `p` and column `q`. -/
theorem kdot2_apply (l : FVec Ideal S5000x64 .bf16) (r : FVec Ideal S64x32 .bf16) (p : Fin 5000) (q : Fin 32) :
    matmul dot_S5000x64_S64x32_S5000x32_1_0_0_1_n_n none l r (constant S5000x32 .f32 0x00000000#32) (ix2 p q)
      = ∑ k : Fin 64, l (ix2 p k) * r (ix2 k q) :=
  Cert.PlainDot.matmul_zero_apply (M := 5000) (K := 64) (N := 32) dot_S5000x64_S64x32_S5000x32_1_0_0_1_n_n rfl rfl rfl rfl
    (fun j q => by
      unfold DotDims.lhsIdx
      rw [dif_neg (show ¬(⟨0, Nat.zero_lt_two⟩ : Fin 2) ∈ dot_S5000x64_S64x32_S5000x32_1_0_0_1_n_n.lhsBatch by decide),
        dif_pos (show (⟨0, Nat.zero_lt_two⟩ : Fin 2) ∈ dot_S5000x64_S64x32_S5000x32_1_0_0_1_n_n.lhsNonContracting by decide)]
      rfl)
    (fun j q => by
      unfold DotDims.rhsIdx
      rw [dif_neg (show ¬(⟨1, Nat.one_lt_two⟩ : Fin 2) ∈ dot_S5000x64_S64x32_S5000x32_1_0_0_1_n_n.rhsBatch by decide),
        dif_pos (show (⟨1, Nat.one_lt_two⟩ : Fin 2) ∈ dot_S5000x64_S64x32_S5000x32_1_0_0_1_n_n.rhsNonContracting by decide)]
      rfl)
    none l r p q

/-- The body's payload at row `p` of the block and column `q` is the encoder's element of the block's row `p`. -/
theorem pay_apply (v0 : Vec Ideal S5000x256 .f32) (v2 : Vec Ideal S256x64 .f32) (v5 : Vec Ideal S64 .f32)
    (v12 : Vec Ideal S64x32 .f32) (v15 : Vec Ideal S32 .f32) (p : Fin 5000) (q : Fin 32) :
    Gen.k0_pay1 v0 v2 v5 v12 v15 (ix2 p q) = enc (fun a => v0 (ix2 p a)) v2 v5 v12 v15 q := by
  unfold Gen.k0_pay1 enc
  refine (addf_apply _ _ _).trans ?_
  refine congrArg₂ (· + ·) ?_ ?_
  · refine (kdot2_apply _ _ p q).trans ?_
    refine Finset.sum_congr rfl fun k _ => ?_
    refine congrArg₂ (· * ·) ?_ (truncf_apply (ψ := .bf16) _ Gen.bitsLt_bf16_f32 _)
    refine (truncf_apply (ψ := .bf16) _ Gen.bitsLt_bf16_f32 _).trans ?_
    refine (maximumf_apply _ _ _).trans ?_
    refine congrArg₂ max ?_ Ideal.ofBits_zero_f32
    refine (addf_apply _ _ _).trans ?_
    refine congrArg₂ (· + ·) ?_ ?_
    · refine (kdot1_apply _ _ p k).trans ?_
      exact Finset.sum_congr rfl fun a _ => congrArg₂ (· * ·) (truncf_apply (ψ := .bf16) _ Gen.bitsLt_bf16_f32 _) (truncf_apply (ψ := .bf16) _ Gen.bitsLt_bf16_f32 _)
    · exact (broadcastTo_1b_ab_apply _ _ p k).trans (shapeCast_a_1a_apply v5 _ 0 k)
  · exact (broadcastTo_1b_ab_apply _ _ p q).trans (shapeCast_a_1a_apply v15 _ 0 q)

/-! ## The reference's stage at an index -/

/-- The reference's first product at row `r` and column `k`. -/
theorem rdot1_apply (l : FVec Ideal ⟨2, ![100000, 256]⟩ .f32) (w : FVec Ideal ⟨2, ![256, 64]⟩ .f32) (r : Fin 100000) (k : Fin 64) :
    Host.dotGeneral Cert.ReferenceIdeal.dot_S100000x256_S256x64_S100000x64_1_0_0_1_n_n none l w (ix2 r k) = ∑ a : Fin 256, l (ix2 r a) * w (ix2 a k) :=
  Cert.PlainDot.dotGeneral_apply (M := 100000) (K := 256) (N := 64) Cert.ReferenceIdeal.dot_S100000x256_S256x64_S100000x64_1_0_0_1_n_n rfl rfl rfl rfl
    (fun j q => by
      unfold DotDims.lhsIdx
      rw [dif_neg (show ¬(⟨0, Nat.zero_lt_two⟩ : Fin 2) ∈ Cert.ReferenceIdeal.dot_S100000x256_S256x64_S100000x64_1_0_0_1_n_n.lhsBatch by decide),
        dif_pos (show (⟨0, Nat.zero_lt_two⟩ : Fin 2) ∈ Cert.ReferenceIdeal.dot_S100000x256_S256x64_S100000x64_1_0_0_1_n_n.lhsNonContracting by decide)]
      rfl)
    (fun j q => by
      unfold DotDims.rhsIdx
      rw [dif_neg (show ¬(⟨1, Nat.one_lt_two⟩ : Fin 2) ∈ Cert.ReferenceIdeal.dot_S100000x256_S256x64_S100000x64_1_0_0_1_n_n.rhsBatch by decide),
        dif_pos (show (⟨1, Nat.one_lt_two⟩ : Fin 2) ∈ Cert.ReferenceIdeal.dot_S100000x256_S256x64_S100000x64_1_0_0_1_n_n.rhsNonContracting by decide)]
      rfl)
    none _ l w r k

/-- The reference's second product at row `r` and column `q`. -/
theorem rdot2_apply (l : FVec Ideal ⟨2, ![100000, 64]⟩ .f32) (w : FVec Ideal ⟨2, ![64, 32]⟩ .f32) (r : Fin 100000) (q : Fin 32) :
    Host.dotGeneral Cert.ReferenceIdeal.dot_S100000x64_S64x32_S100000x32_1_0_0_1_n_n none l w (ix2 r q) = ∑ k : Fin 64, l (ix2 r k) * w (ix2 k q) :=
  Cert.PlainDot.dotGeneral_apply (M := 100000) (K := 64) (N := 32) Cert.ReferenceIdeal.dot_S100000x64_S64x32_S100000x32_1_0_0_1_n_n rfl rfl rfl rfl
    (fun j q => by
      unfold DotDims.lhsIdx
      rw [dif_neg (show ¬(⟨0, Nat.zero_lt_two⟩ : Fin 2) ∈ Cert.ReferenceIdeal.dot_S100000x64_S64x32_S100000x32_1_0_0_1_n_n.lhsBatch by decide),
        dif_pos (show (⟨0, Nat.zero_lt_two⟩ : Fin 2) ∈ Cert.ReferenceIdeal.dot_S100000x64_S64x32_S100000x32_1_0_0_1_n_n.lhsNonContracting by decide)]
      rfl)
    (fun j q => by
      unfold DotDims.rhsIdx
      rw [dif_neg (show ¬(⟨1, Nat.one_lt_two⟩ : Fin 2) ∈ Cert.ReferenceIdeal.dot_S100000x64_S64x32_S100000x32_1_0_0_1_n_n.rhsBatch by decide),
        dif_pos (show (⟨1, Nat.one_lt_two⟩ : Fin 2) ∈ Cert.ReferenceIdeal.dot_S100000x64_S64x32_S100000x32_1_0_0_1_n_n.rhsNonContracting by decide)]
      rfl)
    none _ l w r q

/-- A bias `[n]` broadcast to `[1, n]` along axis 1 and then to `[m, n]` reads, at `(r, k)`, the bias at `k`. -/
theorem hostBias_apply {α : Type} {m n : ℕ} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (k : Fin n) :
    broadcastInDim ⟨2, ![m, n]⟩ ![0, 1] h2 (broadcastInDim ⟨2, ![1, n]⟩ ![1] h1 x) (ix2 r k) = x (ix1 k) := by
  refine (broadcastInDim_apply ![0, 1] h2 _ (ix2 r k) (ix2 (0 : Fin 1) k) fun a => ?_).trans
    (broadcastInDim_apply ![1] h1 x (ix2 (0 : Fin 1) k) (ix1 k) fun a => ?_)
  · match a with
    | ⟨0, _⟩ => rfl
    | ⟨1, _⟩ =>
      show k.val = if n = 1 then 0 else k.val
      split
      · have := k.isLt; omega
      · rfl
  · match a with
    | ⟨0, _⟩ =>
      show k.val = if n = 1 then 0 else k.val
      split
      · have := k.isLt; omega
      · rfl

/-- The zero constant broadcast to a whole array reads zero everywhere. -/
theorem hostZero_apply {t : Shape} (h : (⟨0, ![]⟩ : Shape).BroadcastsInDim t ![]) (j : t.Idx) :
    broadcastInDim t ![] h (constant (F := Ideal) ⟨0, ![]⟩ .f32 0x00000000#32) j = 0 :=
  (broadcastInDim_apply ![] h _ j ix0 fun a => a.elim0).trans Ideal.ofBits_zero_f32

/-- The reference's encoder at row `r` and column `q` is the encoder's element of the features' row `r`. -/
theorem mlp_apply (x0 : (⟨2, ![100000, 256]⟩ : Shape).Idx → EReal) (x1 : (⟨2, ![256, 64]⟩ : Shape).Idx → EReal)
    (x2 : (⟨1, ![64]⟩ : Shape).Idx → EReal) (x3 : (⟨2, ![64, 32]⟩ : Shape).Idx → EReal)
    (x4 : (⟨1, ![32]⟩ : Shape).Idx → EReal) (r : Fin 100000) (q : Fin 32) :
    Cert.Spec.mlp (F := Ideal) x0 x1 x2 x3 x4 (ix2 r q) = enc (fun a => x0 (ix2 r a)) x1 x2 x3 x4 q := by
  unfold Cert.Spec.mlp enc
  refine (addf_apply _ _ _).trans ?_
  refine congrArg₂ (· + ·) ?_ (hostBias_apply x4 _ _ r q)
  refine (rdot2_apply _ _ r q).trans ?_
  refine Finset.sum_congr rfl fun k _ => ?_
  refine congrArg₂ (· * ·) ?_ rfl
  refine (maximumf_apply _ _ _).trans ?_
  refine congrArg₂ max ?_ (hostZero_apply _ _)
  refine (addf_apply _ _ _).trans ?_
  exact congrArg₂ (· + ·) (rdot1_apply _ _ r k) (hostBias_apply x2 _ _ r k)

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The index maps, decided over the 20 points: the features' and the output's row block is the point's number,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the reference's encoder of the argument arrays: rows
    `5000 t … 5000 t + 4999`, each the encoder's element of the features' row. -/
theorem flushed_eq (V : (c : Dev nD) → (b : Ref sig .tc) → Buf (Elt Ideal) ((c : Thread nD τ).loc b))
    (c : Dev nD) (t : Fin cfg0.N) :
    (Gen.dat0 (F := Ideal) V c).flushed 5 t
      = ((cfg0.win 5).blk t).view.read (Elt Ideal)
          (Cert.Spec.mlp (F := Ideal) (V c main_arg0) (V c main_arg1) (V c main_arg2) (V c main_arg3) (V c main_arg4)) := by
  show (cfg0.win 5).cut (grid0.coords t) ((Gen.dat0 V c).after 5 t) = _
  rw [Gen.after0_5]
  unfold Gen.out0_5
  rw [View.canon_unit_zero hz2]
  simp only [View.ld_unit_zero (S := S5000x256) hz2, View.ld_unit_zero (S := S256x64) hz2, View.ld_unit_zero (S := S64) hz1,
    View.ld_unit_zero (S := S64x32) hz2, View.ld_unit_zero (S := S32) hz1]
  obtain ⟨e00, e01, e10, e11, e20, e30, e31, e40, e50, e51⟩ := idx_facts t
  have ht : t.val < 20 := Gen.N_0 ▸ t.isLt
  funext j
  obtain ⟨p, q, rfl⟩ : ∃ (p : Fin 5000) (q : Fin 32), j = ix2 p q := ⟨j 0, j 1, eq_ix2 j⟩
  have hr : t.val * 5000 + p.val < 100000 := by have := p.isLt; omega
  have he : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 32 + 1 * q.val = q.val; omega
  show Gen.k0_pay1 _ _ _ _ _ (ix2 p q) = Cert.Spec.mlp _ _ _ _ _ (((cfg0.win 5).blk t).view.emb (ix2 p q))
  rw [he]
  refine (pay_apply _ _ _ _ _ p q).trans ((mlp_apply _ _ _ _ _ ⟨_, hr⟩ q).trans ?_).symm
  have b0 : (fun a : Fin 256 => (V c main_arg0 : (⟨2, ![100000, 256]⟩ : Shape).Idx → EReal) (ix2 (⟨t.val * 5000 + p.val, hr⟩ : Fin 100000) a))
      = fun a => Gen.iblk0 V c 0 t (ix2 p a) := by
    funext a
    show V c main_arg0 _ = V c main_arg0 (((cfg0.win 0).blk t).view.emb (ix2 p a))
    refine congrArg (V c main_arg0) (funext fun ax => Fin.ext ?_)
    match ax with
    | ⟨0, _⟩ => show t.val * 5000 + p.val = win0_0.index t (0 : Fin 2) * 5000 + 1 * p.val; omega
    | ⟨1, _⟩ => show a.val = win0_0.index t (1 : Fin 2) * 256 + 1 * a.val; omega
  have b1 : (V c main_arg1 : (⟨2, ![256, 64]⟩ : Shape).Idx → EReal) = Gen.iblk0 V c 1 t := by
    funext y
    show V c main_arg1 y = V c main_arg1 (((cfg0.win 1).blk t).view.emb y)
    refine congrArg (V c main_arg1) (funext fun ax => Fin.ext ?_)
    match ax with
    | ⟨0, _⟩ => show (y 0).val = win0_1.index t (0 : Fin 2) * 256 + 1 * (y 0).val; omega
    | ⟨1, _⟩ => show (y 1).val = win0_1.index t (1 : Fin 2) * 64 + 1 * (y 1).val; omega
  have b2 : (V c main_arg2 : (⟨1, ![64]⟩ : Shape).Idx → EReal) = Gen.iblk0 V c 2 t := by
    funext y
    show V c main_arg2 y = V c main_arg2 (((cfg0.win 2).blk t).view.emb y)
    refine congrArg (V c main_arg2) (funext fun ax => Fin.ext ?_)
    match ax with
    | ⟨0, _⟩ => show (y 0).val = win0_2.index t (0 : Fin 1) * 64 + 1 * (y 0).val; omega
  have b3 : (V c main_arg3 : (⟨2, ![64, 32]⟩ : Shape).Idx → EReal) = Gen.iblk0 V c 3 t := by
    funext y
    show V c main_arg3 y = V c main_arg3 (((cfg0.win 3).blk t).view.emb y)
    refine congrArg (V c main_arg3) (funext fun ax => Fin.ext ?_)
    match ax with
    | ⟨0, _⟩ => show (y 0).val = win0_3.index t (0 : Fin 2) * 64 + 1 * (y 0).val; omega
    | ⟨1, _⟩ => show (y 1).val = win0_3.index t (1 : Fin 2) * 32 + 1 * (y 1).val; omega
  have b4 : (V c main_arg4 : (⟨1, ![32]⟩ : Shape).Idx → EReal) = Gen.iblk0 V c 4 t := by
    funext y
    show V c main_arg4 y = V c main_arg4 (((cfg0.win 4).blk t).view.emb y)
    refine congrArg (V c main_arg4) (funext fun ax => Fin.ext ?_)
    match ax with
    | ⟨0, _⟩ => show (y 0).val = win0_4.index t (0 : Fin 1) * 32 + 1 * (y 0).val; omega
  rw [b0, b1, b2, b3, b4]

/-- An index of the array is in point `t`'s block iff each coordinate is in the block's range on its axis. -/
theorem mem_blk (t : Fin cfg0.N) (i : (⟨2, ![100000, 32]⟩ : Shape).Idx) :
    i ∈ ((cfg0.win 5).blk t).view.set ↔ ∀ a : Fin 2, win0_5.index t a * S5000x32.size a ≤ (i a).val
      ∧ (i a).val < win0_5.index t a * S5000x32.size a + S5000x32.size a := by
  show i ∈ ((View.whole main_v0).slice (win0_5.rect t)).set ↔ _
  rw [View.set_slice_whole, Rect.mem_set_unit]
  exact Iff.rfl

/-- Every index of the array is in some point's block: row `r` is in the block of point `r / 5000`. -/
theorem cover (i : (⟨2, ![100000, 32]⟩ : Shape).Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have hlt : (i 0).val / 5000 < 20 := by omega
  obtain ⟨t, ht⟩ : ∃ t : Fin cfg0.N, t.val = (i 0).val / 5000 := ⟨⟨_, lt_of_lt_of_eq hlt Gen.N_0.symm⟩, rfl⟩
  obtain ⟨-, -, -, -, -, -, -, -, e50, e51⟩ := idx_facts t
  refine ⟨t, Gen.flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 32 ≤ (i 1).val ∧ (i 1).val < win0_5.index t (1 : Fin 2) * 32 + 32
    omega

/-! ## The region's output array -/

/-- After the region the output array is the reference's encoder of the argument arrays as the region finds them. -/
theorem mlp_arr (V : (c : Dev nD) → (b : Ref sig .tc) → Buf (Elt Ideal) ((c : Thread nD τ).loc b)) (c : Dev nD) :
    (Gen.dat0 (F := Ideal) V c).arrAt 5 cfg0.N
      = Cert.Spec.mlp (F := Ideal) (V c main_arg0) (V c main_arg1) (V c main_arg2) (V c main_arg3) (V c main_arg4) :=
  (Gen.dat0 (F := Ideal) V c).arrAt_eq_of_cover 5 _ (fun t _ => flushed_eq V c t) cover

end Cert.KernelIdeal.RegionMlp

end
-- ==== Proof.RegionL21.lean ====
/-
  The second region's output array as one function of its two input arrays.

  The region walks 200 points; at point `t` it reads rows `8000 t … 8000 t + 7999` of two `[1600000, 32]` arrays `z` and `δ`
  and writes the same rows of the output. On a block the body forms z̄ = z + 2·δ, sums the squares of each row of z̄ over its
  32 columns, takes the square root `n` of the sum, and scales the row by min (n, 3) / (n if n > 0, else 1). The reference
  stage `Cert.Spec.l21` does the same on the whole arrays with the host's sum, square root and quotient; on the extended
  reals those are the same functions, and the host's sum starts from the zero word, which adds nothing.

  So both sides, at row `e` and column `q`, are
      zb (z e q) (δ e q) · scaleOf (√ Σ_k zb (z e k) (δ e k)²)
  (`pay_apply` for the body on a block, `l21_apply` for the reference stage), a block's element `(p, q)` at point `t` is the
  arrays' element `(8000 t + p, q)` (`iblk0_apply`, `iblk1_apply`, `emb_out`), hence what point `t` writes back is block `t` of
  the reference stage's array (`flushed_eq`); row `r` lies in the block of point `r / 8000` (`cover`), so the array ends
  holding the reference stage's array (`l21_arr`).
-/
import proofs.«137047_j59021440582159_1_alg».proof.Proof.Gen.KernelIdeal.Frame
import proofs.«137047_j59021440582159_1_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.RegionL21

open Cert.KernelIdeal Idealize.ShloMosaic Idealize.ShloMosaic.TcCoe Idealize.SL.Sem
open Idealize.ShloMosaic.ValueIdx

/-! ## Column forms of the layout operations, read at an index written by coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast along axis 0 into `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` array broadcast along axes (0, 1) into `[a, b]` reads, at `(p, c)`, the operand's row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One element of the computation -/

/-- z + 2·δ at one element. -/
def zb (z d : EReal) : EReal := z + Ideal.ofBits .f32 0x40000000#32 * d

/-- The scale factor of a row of norm `n`: min (n, 3) / (n if n > 0, else 1). -/
def scaleOf (n : EReal) : EReal :=
  Ideal.div (min n (Ideal.ofBits .f32 0x40400000#32))
    (Scalar.select (Ideal.cmp .ogt n (Ideal.ofBits .f32 0x00000000#32)) n (Ideal.ofBits .f32 0x3F800000#32))

/-! ## The body's payload at an index -/

/-- The lane sum over axis 1 of an `[a, b]` vector, from the zero word, read at row `p`: the sum over the row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  match c with
  | ⟨0, _⟩ => rfl
  | ⟨1, _⟩ => rfl

/-- The body's payload at row `p`, column `q` of its blocks. -/
theorem pay_apply (x0 x1 : Vec Ideal S8000x32 .f32) (p : Fin 8000) (q : Fin 32) :
    Gen.k1_pay1 (F := Ideal) x0 x1 (ix2 p q)
      = zb (x0 (ix2 p q)) (x1 (ix2 p q))
        * scaleOf (Ideal.sqrt (∑ k : Fin 32, zb (x0 (ix2 p k)) (x1 (ix2 p k)) * zb (x0 (ix2 p k)) (x1 (ix2 p k)))) := by
  unfold Gen.k1_pay1
  dsimp only
  rw [shapeCast_self, shapeCast_self]
  rw [mulf_apply, broadcastTo_a1_ab_apply]
  refine congrArg₂ (· * ·) rfl ?_
  show scaleOf (Ideal.sqrt (shapeCast S8000x1 _ _ (ix2 p (0 : Fin 1)))) = _
  rw [shapeCast_a_a1_apply, rowSum_apply]
  rfl

/-! ## The reference's stage at an index -/

section HostPointwise
variable {s : Shape} {φ : FTy}

/-- A scalar constant broadcast into any shape reads the constant's value everywhere. -/
theorem bconst_apply {t : Shape} (w : BitVec φ.bits)
    (h : (⟨0, ![]⟩ : Shape).BroadcastsInDim t (![] : Fin 0 → Fin t.rank)) (j : t.Idx) :
    broadcastInDim t (![] : Fin 0 → Fin t.rank) h (constant (F := Ideal) ⟨0, ![]⟩ φ w) j = Ideal.ofBits φ w := rfl

/-- The host's quotient at an index is the quotient of the elements. -/
theorem hostDivf_apply (a b : FVec Ideal s φ) (i : s.Idx) : Host.divf a b i = Ideal.div (a i) (b i) := rfl
/-- The host's square root at an index is the square root of the element. -/
theorem hostSqrt_apply (a : FVec Ideal s φ) (i : s.Idx) : Host.sqrt a i = Ideal.sqrt (a i) := rfl
/-- The host's sum over axes, read at an index: the ideal sum from the initial value's one element. -/
theorem hostReduceAdd_apply {axes : List (Fin s.rank)} {t u : Shape} (x : FVec Ideal s φ) (init : u.Idx → Ideal φ)
    (h : s.ReducesTo axes t) (hu : 0 < u.numel) (j : t.Idx) :
    Host.reduceAdd x init h hu j = Ideal.hostReduceAdd h x (init (Shape.Idx.first hu)) j := rfl

end HostPointwise

/-- z̄ at an index. -/
theorem zbar_apply (z d : (⟨2, ![1600000, 32]⟩ : Shape).Idx → EReal) (i : (⟨2, ![1600000, 32]⟩ : Shape).Idx) :
    Cert.Spec.zbar (F := Ideal) z d i = zb (z i) (d i) := by
  unfold Cert.Spec.zbar zb
  rw [addf_apply, mulf_apply, bconst_apply]

/-- A row's norm: the square root of the sum of the row's squares. -/
theorem rowNorm_apply (v : (⟨2, ![1600000, 32]⟩ : Shape).Idx → EReal) (e : Fin 1600000) :
    Cert.Spec.rowNorm (F := Ideal) v (ix1 e) = Ideal.sqrt (∑ k : Fin 32, v (ix2 e k) * v (ix2 e k)) := by
  have hR : Shape.Reduces ⟨2, ![1600000, 32]⟩ [1] ⟨1, ![1600000]⟩ := by decide
  unfold Cert.Spec.rowNorm
  rw [hostSqrt_apply, hostReduceAdd_apply, Ideal.hostReduceAdd_single _ hR, constant_apply, Ideal.ofBits_zero_f32, zero_add]
  refine congrArg Ideal.sqrt (Finset.sum_congr rfl fun k _ => ?_)
  have hk : hR.lift (ix1 e) k = ix2 e k := funext fun c => by
    match c with
    | ⟨0, _⟩ => rfl
    | ⟨1, _⟩ => rfl
  rw [hk]
  rfl

/-- A row's scale factor, from its norm. -/
theorem rowScale_apply (rn : (⟨1, ![1600000]⟩ : Shape).Idx → EReal) (e : Fin 1600000) :
    Cert.Spec.rowScale (F := Ideal) rn (ix1 e) = scaleOf (rn (ix1 e)) := by
  unfold Cert.Spec.rowScale scaleOf
  rw [hostDivf_apply, minimumf_apply, select_apply, cmpf_apply, bconst_apply, bconst_apply]
  simp only [id]
  rw [bconst_apply]
  rfl

/-- The row projection of z + 2·δ at row `e`, column `q`. -/
theorem l21_apply (z d : (⟨2, ![1600000, 32]⟩ : Shape).Idx → EReal) (e : Fin 1600000) (q : Fin 32) :
    Cert.Spec.l21 (F := Ideal) z d (ix2 e q)
      = zb (z (ix2 e q)) (d (ix2 e q))
        * scaleOf (Ideal.sqrt (∑ k : Fin 32, zb (z (ix2 e k)) (d (ix2 e k)) * zb (z (ix2 e k)) (d (ix2 e k)))) := by
  unfold Cert.Spec.l21
  rw [mulf_apply, broadcastInDim_a1_ab_apply, broadcastInDim_a_a1_apply, rowScale_apply, rowNorm_apply]
  simp only [zbar_apply]

/-! ## From blocks to the array -/

theorem hz : (![0, 0] : Fin 2 → Nat) = fun _ => 0 := funext fun a => by fin_cases a <;> rfl

/-- The printed index maps, decided over the grid: every window's block at point `t` is block `(t, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `p` of point `t`'s blocks is row `8000 t + p` of the arrays. -/
theorem row_lt (t : Fin cfg1.N) (p : Fin 8000) : t.val * 8000 + p.val < 1600000 := by
  have ht := t.isLt
  have hN : cfg1.N = 200 := Gen.N_1
  have hp := p.isLt
  omega

section Blocks
variable (V : (c : Dev nD) → (b : Ref sig .tc) → Buf (Elt Ideal) ((c : Thread nD τ).loc b))

/-- The first input's block at point `t`, read at `(p, k)`: the array at `(8000 t + p, k)`. -/
theorem iblk0_apply (c : Dev nD) (t : Fin cfg1.N) (p : Fin 8000) (k : Fin 32) :
    (Gen.iblk1 V c 0 t : Vec Ideal S8000x32 .f32) (ix2 p k)
      = (V c main_v46 : (⟨2, ![1600000, 32]⟩ : Shape).Idx → EReal) (ix2 ⟨t.val * 8000 + p.val, row_lt t p⟩ k) := by
  obtain ⟨e0, e1, -, -, -, -⟩ := idx_facts t
  unfold Gen.iblk1
  rw [View.read_apply]
  show V c main_v46 _ = V c main_v46 _
  congr 1
  funext a
  apply Fin.ext
  match a with
  | ⟨0, _⟩ => show win1_0.index t (0 : Fin 2) * 8000 + 1 * p.val = t.val * 8000 + p.val; rw [e0]; omega
  | ⟨1, _⟩ => show win1_0.index t (1 : Fin 2) * 32 + 1 * k.val = k.val; rw [e1]; omega

/-- The second input's block at point `t`, read at `(p, k)`: the array at `(8000 t + p, k)`. -/
theorem iblk1_apply (c : Dev nD) (t : Fin cfg1.N) (p : Fin 8000) (k : Fin 32) :
    (Gen.iblk1 V c 1 t : Vec Ideal S8000x32 .f32) (ix2 p k)
      = (V c main_v99 : (⟨2, ![1600000, 32]⟩ : Shape).Idx → EReal) (ix2 ⟨t.val * 8000 + p.val, row_lt t p⟩ k) := by
  obtain ⟨-, -, e2, e3, -, -⟩ := idx_facts t
  unfold Gen.iblk1
  rw [View.read_apply]
  show V c main_v99 _ = V c main_v99 _
  congr 1
  funext a
  apply Fin.ext
  match a with
  | ⟨0, _⟩ => show win1_1.index t (0 : Fin 2) * 8000 + 1 * p.val = t.val * 8000 + p.val; rw [e2]; omega
  | ⟨1, _⟩ => show win1_1.index t (1 : Fin 2) * 32 + 1 * k.val = k.val; rw [e3]; omega

/-- Element `(p, q)` of the output's block at point `t` sits at `(8000 t + p, q)` of the array. -/
theorem emb_out (t : Fin cfg1.N) (p : Fin 8000) (q : Fin 32) :
    ((cfg1.win 2).blk t).view.emb (ix2 p q) = (ix2 ⟨t.val * 8000 + p.val, row_lt t p⟩ q : (⟨2, ![1600000, 32]⟩ : Shape).Idx) := by
  obtain ⟨-, -, -, -, e4, e5⟩ := idx_facts t
  funext a
  apply Fin.ext
  match a with
  | ⟨0, _⟩ => show win1_2.index t (0 : Fin 2) * 8000 + 1 * p.val = t.val * 8000 + p.val; rw [e4]; omega
  | ⟨1, _⟩ => show win1_2.index t (1 : Fin 2) * 32 + 1 * q.val = q.val; rw [e5]; omega

/-- What point `t` writes back is block `t` of the row projection of the two input arrays. -/
theorem flushed_eq (c : Dev nD) (t : Fin cfg1.N) :
    (Gen.dat1 V c).flushed 2 t
      = ((cfg1.win 2).blk t).view.read (Elt Ideal) (Cert.Spec.l21 (F := Ideal) (V c main_v46) (V c main_v99)) := by
  show (cfg1.win 2).cut (grid1.coords t) ((Gen.dat1 V c).after 2 t) = _
  rw [Gen.after1_2]
  unfold Gen.out1_2
  rw [View.canon_unit_zero hz]
  simp only [View.ld_unit_zero (S := S8000x32) hz]
  funext j
  obtain ⟨p, q, rfl⟩ : ∃ (p : Fin 8000) (q : Fin 32), j = ix2 p q := ⟨j 0, j 1, eq_ix2 j⟩
  refine (pay_apply (Gen.iblk1 V c 0 t) (Gen.iblk1 V c 1 t) p q).trans ?_
  rw [View.read_apply, emb_out, l21_apply]
  simp only [iblk0_apply V c t p, iblk1_apply V c t p, cast_eq]

end Blocks

/-- An index of the array is in point `t`'s block iff each coordinate is in the block's range on its axis. -/
theorem mem_blk (t : Fin cfg1.N) (i : S1600000x32.Idx) :
    i ∈ ((cfg1.win 2).blk t).view.set ↔ ∀ a : Fin 2, win1_2.index t a * S8000x32.size a ≤ (i a).val ∧ (i a).val < win1_2.index t a * S8000x32.size a + S8000x32.size a := by
  show i ∈ ((View.whole main_v100).slice (win1_2.rect t)).set ↔ _
  rw [View.set_slice_whole, Rect.mem_set_unit]
  exact Iff.rfl

/-- Every index of the array is in some point's block: row `r` is in the block of point `r / 8000`. -/
theorem cover (i : S1600000x32.Idx) : ∃ t : Fin cfg1.N, (cfg1.win 2).flush t = true ∧ i ∈ ((cfg1.win 2).blk t).view.set := by
  have hi0 : (i 0).val < 1600000 := (i 0).isLt
  have hi1 : (i 1).val < 32 := (i 1).isLt
  have hN : cfg1.N = 200 := Gen.N_1
  have ht : (i 0).val / 8000 < cfg1.N := by rw [hN]; omega
  obtain ⟨-, -, -, -, e4, e5⟩ := idx_facts ⟨(i 0).val / 8000, ht⟩
  refine ⟨⟨(i 0).val / 8000, ht⟩, Gen.flush1_2 _, ?_⟩
  rw [mem_blk]
  intro a
  match a with
  | ⟨0, _⟩ =>
    show win1_2.index ⟨(i 0).val / 8000, ht⟩ (0 : Fin 2) * 8000 ≤ (i 0).val ∧ (i 0).val < win1_2.index ⟨(i 0).val / 8000, ht⟩ (0 : Fin 2) * 8000 + 8000
    rw [e4]
    show (i 0).val / 8000 * 8000 ≤ (i 0).val ∧ (i 0).val < (i 0).val / 8000 * 8000 + 8000
    omega
  | ⟨1, _⟩ =>
    show win1_2.index ⟨(i 0).val / 8000, ht⟩ (1 : Fin 2) * 32 ≤ (i 1).val ∧ (i 1).val < win1_2.index ⟨(i 0).val / 8000, ht⟩ (1 : Fin 2) * 32 + 32
    rw [e5]
    omega

/-- THE ARRAY after the region: the row projection of z + 2·δ of the two input arrays as the region finds them. -/
theorem l21_arr (V : (c : Dev nD) → (b : Ref sig .tc) → Buf (Elt Ideal) ((c : Thread nD τ).loc b)) (c : Dev nD) :
    (Gen.dat1 (F := Ideal) V c).arrAt 2 cfg1.N = Cert.Spec.l21 (F := Ideal) (V c main_v46) (V c main_v99) :=
  (Gen.dat1 V c).arrAt_eq_of_cover 2 _ (fun t _ => flushed_eq V c t) cover

end Cert.KernelIdeal.RegionL21

end
-- ==== Proof.RegionLs.lean ====
/-
  The third region's output array as one function of its input array.

  Each of the region's ten points takes a block of 10000 rows of a [100000, 32] array and leaves, in the same rows of the
  output array, the row-wise logarithm of the softmax: every entry shifted by its row's maximum M (taken from −∞), then by
  log Σ_k exp (x[r, k] − M). The reference's stage function is the same number at every (r, q): its row maximum is followed
  by one more maximum against −∞, which changes nothing, and its row sum starts from 0.

  In order: the keepdims layout operations read at an index; the row reductions of the body and of the reference, each read
  as one fold of `max` from −∞ or one `Fin`-indexed sum over the row; the body's payload and the reference's stage function,
  each read at (row, column) as `rowLs` of that row; a point's block as rows t · 10000 … t · 10000 + 9999 of the array; the
  blocks cover the array, so the array ends holding the stage function of the input array.
-/
import proofs.«137047_j59021440582159_1_alg».proof.Proof.Gen.KernelIdeal.Frame
import proofs.«137047_j59021440582159_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section
namespace Cert.KernelIdeal.RegionLs
open Cert.KernelIdeal Idealize.ShloMosaic Idealize.ShloMosaic.TcCoe Idealize.SL.Sem
open Idealize.ShloMosaic.ValueIdx
open scoped BigOperators

/-! ## Keepdims layout operations read at an index -/

section Layout
variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a]` → `[a, 1]` broadcast along axis 0 reads, at `(i, u)`, the operand at `i`. -/
theorem broadcastInDim_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1]` → `[a, b]` broadcast along both axes reads, at `(p, c)`, the column's entry of row `p`. -/
theorem broadcastInDim_a1_ab_apply {a b : ℕ} (h : (⟨2, ![a, 1]⟩ : Shape).BroadcastsInDim ⟨2, ![a, b]⟩ ![0, 1])
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along the rows of a matrix -/

/-- The reduced index `p` with the column `k` put back is `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The word of −∞ as an extended real, the value every row maximum here starts from. -/
abbrev negInf : EReal := Ideal.ofBits .f32 0xFF800000#32

/-- The maximum of a row of `n` extended reals, from −∞. -/
def rowMax {n : ℕ} (row : Fin n → EReal) : EReal := (Finset.univ : Finset (Fin n)).fold max negInf row

/-- A maximum against −∞ of a row maximum taken from −∞ changes nothing. -/
theorem max_negInf_rowMax {n : ℕ} (row : Fin n → EReal) : max negInf (rowMax row) = rowMax row :=
  max_eq_right ((Finset.le_fold_max _).mpr (Or.inl le_rfl))

/-- A kernel's maximum over axis 1 from the word of −∞, at row `p`, is the row's maximum. -/
theorem multiReduction_max_row {m n : ℕ} (src : FVec Ideal ⟨2, ![m, n]⟩ .f32)
    (h : (⟨2, ![m, n]⟩ : Shape).Reduces [1] (⟨1, ![m]⟩ : Shape)) (hφ : FKind.Formats .f32)
    (hacc : (0xFF800000#32 : BitVec 32) = 0xFF800000#32) (p : Fin m) :
    multiReduction (F := Ideal) .maximumf [1] ⟨1, ![m]⟩ src 0xFF800000#32 h hφ hacc (ix1 p) = rowMax fun k : Fin n => src (ix2 p k) := by
  refine (Ideal.multiReduction_maximumf_single src 0xFF800000#32 h hφ hacc (ix1 p)).trans ?_
  have hf : (src ∘ h.lift (ix1 p)) = fun k : Fin n => src (ix2 p k) := funext fun k => congrArg src (lift_row h p k)
  exact congrArg (fun f => Finset.fold max negInf f (Finset.univ : Finset (Fin n))) hf

/-- A kernel's sum over axis 1 from zero, at row `p`, is the row's sum. -/
theorem multiReduction_add_row {m n : ℕ} (src : FVec Ideal ⟨2, ![m, n]⟩ .f32)
    (h : (⟨2, ![m, n]⟩ : Shape).Reduces [1] (⟨1, ![m]⟩ : Shape)) (hφ : FKind.Formats .f32)
    (hacc : (0x00000000#32 : BitVec 32) = 0x00000000#32) (p : Fin m) :
    multiReduction (F := Ideal) .add [1] ⟨1, ![m]⟩ src 0x00000000#32 h hφ hacc (ix1 p) = ∑ k : Fin n, src (ix2 p k) := by
  refine (Ideal.multiReduction_add_single src 0x00000000#32 h hφ hacc (ix1 p)).trans ?_
  show ∑ k : Fin n, src (h.lift (ix1 p) k) = _
  exact Finset.sum_congr rfl fun k _ => congrArg src (lift_row h p k)

/-- The host's reduce with a maximum body over axis 1 from the word of −∞, at row `p`, is the row's maximum. -/
theorem hostReduce_max_row {m n : ℕ} (x : FVec Ideal ⟨2, ![m, n]⟩ .f32)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (p : Fin m) :
    Host.reduce FloatOps.maximumf x (constant (F := Ideal) (⟨0, ![]⟩ : Shape) .f32 0xFF800000#32) h' hu (ix1 p)
      = rowMax fun k : Fin n => x (ix2 p k) := by
  refine (Host.reduce_eq_fold_single FloatOps.maximumf x _ h' h hu (ix1 p)).trans ?_
  have hf : (x ∘ h.lift (ix1 p)) = fun k : Fin n => x (ix2 p k) := funext fun k => congrArg x (lift_row h p k)
  exact congrArg (fun f => Finset.fold max negInf f (Finset.univ : Finset (Fin n))) hf

/-- The host's sum over axis 1 from zero, at row `p`, is the row's sum. -/
theorem hostReduceAdd_row {m n : ℕ} (x : FVec Ideal ⟨2, ![m, n]⟩ .f32)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (p : Fin m) :
    Host.reduceAdd (F := Ideal) x (constant (F := Ideal) (⟨0, ![]⟩ : Shape) .f32 0x00000000#32) h' hu (ix1 p)
      = ∑ k : Fin n, x (ix2 p k) := by
  refine (Ideal.hostReduceAdd_single h' h x _ (ix1 p)).trans ?_
  show Ideal.ofBits .f32 0x00000000#32 + ∑ k : Fin n, x (h.lift (ix1 p) k) = _
  rw [Ideal.ofBits_zero_f32, zero_add]
  exact Finset.sum_congr rfl fun k _ => congrArg x (lift_row h p k)

/-! ## The row-wise logarithm of the softmax, as a function of one row -/

/-- Entry `q` of the log-softmax of a row: the entry shifted by the row's maximum, then by the logarithm of the sum of the
    exponentials of the shifted row. -/
def rowLs {n : ℕ} (row : Fin n → EReal) (q : Fin n) : EReal :=
  (row q - rowMax row) - Ideal.log (∑ k : Fin n, Ideal.exp (row k - rowMax row))

/-! ## The kernel body's payload at an index -/

/-- The row maxima of a block, as the body computes them, broadcast back over the rows. -/
def blkMax (x0 : Vec Ideal S10000x32 .f32) : FVec Ideal S10000x32 .f32 :=
  broadcastTo S10000x32 (shapeCast S10000x1 (multiReduction (F := Ideal) .maximumf [1] S10000 x0 0xFF800000#32
    Gen.reduces_S10000x32_S10000 (.inl rfl) rfl) Gen.shapeCasts_S10000_S10000x1) Gen.broadcasts_S10000x1_S10000x32

theorem blkMax_apply (x0 : Vec Ideal S10000x32 .f32) (p : Fin 10000) (k : Fin 32) :
    blkMax x0 (ix2 p k) = rowMax fun k' : Fin 32 => x0 (ix2 p k') :=
  (broadcastTo_a1_ab_apply _ Gen.broadcasts_S10000x1_S10000x32 p k).trans
    ((shapeCast_a_a1_apply _ Gen.shapeCasts_S10000_S10000x1 p 0).trans
      (multiReduction_max_row x0 Gen.reduces_S10000x32_S10000 (.inl rfl) rfl p))

/-- The logarithms of the row sums of the exponentials of a block, as the body computes them, broadcast back over the rows. -/
def blkLogSum (v : FVec Ideal S10000x32 .f32) : FVec Ideal S10000x32 .f32 :=
  broadcastTo S10000x32 (log (shapeCast S10000x1 (multiReduction (F := Ideal) .add [1] S10000 (exp v) 0x00000000#32
    Gen.reduces_S10000x32_S10000 (.inl rfl) rfl) Gen.shapeCasts_S10000_S10000x1)) Gen.broadcasts_S10000x1_S10000x32

theorem blkLogSum_apply (v : FVec Ideal S10000x32 .f32) (p : Fin 10000) (q : Fin 32) :
    blkLogSum v (ix2 p q) = Ideal.log (∑ k : Fin 32, Ideal.exp (v (ix2 p k))) :=
  (broadcastTo_a1_ab_apply _ Gen.broadcasts_S10000x1_S10000x32 p q).trans
    (congrArg Ideal.log ((shapeCast_a_a1_apply _ Gen.shapeCasts_S10000_S10000x1 p 0).trans
      (multiReduction_add_row (exp v) Gen.reduces_S10000x32_S10000 (.inl rfl) rfl p)))

/-- The payload is the block shifted by its row maxima, then by the logarithms of the shifted block's row sums of exponentials. -/
theorem pay_eq (x0 : Vec Ideal S10000x32 .f32) :
    Gen.k2_pay1 (F := Ideal) x0 = subf (subf x0 (blkMax x0)) (blkLogSum (subf x0 (blkMax x0))) := by
  unfold Gen.k2_pay1 blkMax blkLogSum
  simp only [shapeCast_self]

/-- The kernel body's payload, read at row `p` and column `q` of its block, is the log-softmax of the block's row `p` at `q`. -/
theorem pay_apply (x0 : Vec Ideal S10000x32 .f32) (p : Fin 10000) (q : Fin 32) :
    Gen.k2_pay1 (F := Ideal) x0 (ix2 p q) = rowLs (fun k : Fin 32 => x0 (ix2 p k)) q := by
  rw [pay_eq]
  show (x0 (ix2 p q) - blkMax x0 (ix2 p q)) - blkLogSum (subf x0 (blkMax x0)) (ix2 p q) = _
  rw [blkLogSum_apply, blkMax_apply]
  have hs : ∀ k : Fin 32, subf x0 (blkMax x0) (ix2 p k) = x0 (ix2 p k) - rowMax fun k' : Fin 32 => x0 (ix2 p k') := fun k =>
    congrArg (fun m => x0 (ix2 p k) - m) (blkMax_apply x0 p k)
  simp only [hs]
  rfl

/-! ## The reference's stage function at an index -/

section Pointwise
variable {s : Shape} {φ : FTy}

theorem exp_apply (a : FVec Ideal s φ) (i : s.Idx) : exp a i = Ideal.exp (a i) := rfl
theorem log_apply (a : FVec Ideal s φ) (i : s.Idx) : log a i = Ideal.log (a i) := rfl
theorem hostExp_apply (a : FVec Ideal s φ) (i : s.Idx) : Host.exp a i = Ideal.exp (a i) := rfl
theorem hostLog_apply (a : FVec Ideal s φ) (i : s.Idx) : Host.log a i = Ideal.log (a i) := rfl

/-- A scalar broadcast to any shape reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

end Pointwise

theorem reduces_rows : (⟨2, ![100000, 32]⟩ : Shape).Reduces [1] (⟨1, ![100000]⟩ : Shape) := by decide

/-- Every entry shifted by its row's maximum. -/
theorem shifted_apply (x : FVec Ideal ⟨2, ![100000, 32]⟩ .f32) (r : Fin 100000) (q : Fin 32) :
    Cert.Spec.shifted (F := Ideal) x (ix2 r q) = x (ix2 r q) - rowMax fun k : Fin 32 => x (ix2 r k) := by
  unfold Cert.Spec.shifted
  refine (subf_apply _ _ _).trans ?_
  refine congrArg (fun m => x (ix2 r q) - m) ?_
  refine (broadcastInDim_a1_ab_apply Cert.ReferenceIdeal.Gen.bcast_S100000x1_S100000x32_0_1 _ r q).trans ?_
  refine (broadcastInDim_a_a1_apply Cert.ReferenceIdeal.Gen.bcast_S100000_S100000x1_0 _ r 0).trans ?_
  refine (maximumf_apply _ _ _).trans ?_
  refine (congrArg₂ max ((broadcastInDim_scalar_apply _ _ _ _).trans (constant_apply _ _))
    (hostReduce_max_row x _ reduces_rows _ r)).trans ?_
  exact max_negInf_rowMax _

/-- The reference's stage function, read at row `r` and column `q`, is the log-softmax of the array's row `r` at `q`. -/
theorem logSoftmax_apply (x : FVec Ideal ⟨2, ![100000, 32]⟩ .f32) (r : Fin 100000) (q : Fin 32) :
    Cert.Spec.logSoftmax (F := Ideal) x (ix2 r q) = rowLs (fun k : Fin 32 => x (ix2 r k)) q := by
  unfold Cert.Spec.logSoftmax
  refine (subf_apply _ _ _).trans ?_
  refine congrArg₂ (fun a b : EReal => a - b) (shifted_apply x r q) ?_
  refine (broadcastInDim_a1_ab_apply Cert.ReferenceIdeal.Gen.bcast_S100000x1_S100000x32_0_1 _ r q).trans ?_
  refine (hostLog_apply _ _).trans ?_
  refine congrArg Ideal.log ?_
  refine (broadcastInDim_a_a1_apply Cert.ReferenceIdeal.Gen.bcast_S100000_S100000x1_0 _ r 0).trans ?_
  refine (hostReduceAdd_row _ _ reduces_rows _ r).trans ?_
  exact Finset.sum_congr rfl fun k _ => (hostExp_apply _ _).trans (congrArg Ideal.exp (shifted_apply x r k))

/-! ## From blocks to the array -/

section Blocks
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` both windows sit at block `(t, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row `p` of point `t`'s block is row `t · 10000 + p` of the array. -/
def rowOf (t : Fin cfg2.N) (p : Fin 10000) : Fin 100000 :=
  ⟨t.val * 10000 + p.val, by have ht : t.val < 10 := lt_of_lt_of_eq t.isLt Gen.N_2; have := p.isLt; omega⟩

/-- Where an element of the input window's block at point `t` sits in the array. -/
theorem emb_in (t : Fin cfg2.N) (p : Fin 10000) (q : Fin 32) :
    ((cfg2.win 0).blk t).view.emb (ix2 p q) = ix2 (rowOf t p) q := by
  obtain ⟨e0, e1, -, -⟩ := idx_facts t
  funext a; apply Fin.ext
  match a with
  | ⟨0, _⟩ => show win2_0.index t (0 : Fin 2) * 10000 + 1 * p.val = t.val * 10000 + p.val; rw [e0]; omega
  | ⟨1, _⟩ => show win2_0.index t (1 : Fin 2) * 32 + 1 * q.val = q.val; rw [e1]; omega

/-- Where an element of the output window's block at point `t` sits in the array. -/
theorem emb_out (t : Fin cfg2.N) (p : Fin 10000) (q : Fin 32) :
    ((cfg2.win 1).blk t).view.emb (ix2 p q) = ix2 (rowOf t p) q := by
  obtain ⟨-, -, e2, e3⟩ := idx_facts t
  funext a; apply Fin.ext
  match a with
  | ⟨0, _⟩ => show win2_1.index t (0 : Fin 2) * 10000 + 1 * p.val = t.val * 10000 + p.val; rw [e2]; omega
  | ⟨1, _⟩ => show win2_1.index t (1 : Fin 2) * 32 + 1 * q.val = q.val; rw [e3]; omega

/-- The input window's block at point `t`, read at `(p, q)`, is the array at row `t · 10000 + p`, column `q`. -/
theorem iblk_apply (c : Dev nD) (t : Fin cfg2.N) (p : Fin 10000) (q : Fin 32) :
    Gen.iblk2 (F := Ideal) V c 0 t (ix2 p q) = V c main_v114 (ix2 (rowOf t p) q) := by
  show V c main_v114 (((cfg2.win 0).blk t).view.emb (ix2 p q)) = _
  rw [emb_in]

/-- WHAT POINT `t` WRITES BACK is block `t` of the log-softmax of the input array as the region finds it. -/
theorem flushed_eq (c : Dev nD) (t : Fin cfg2.N) :
    (Gen.dat2 (F := Ideal) V c).flushed 1 t
      = ((cfg2.win 1).blk t).view.read (Elt Ideal) (Cert.Spec.logSoftmax (F := Ideal) (V c main_v114)) := by
  show (cfg2.win 1).cut (grid2.coords t) ((Gen.dat2 (F := Ideal) V c).after 1 t) = _
  rw [Gen.after2_1]
  unfold Gen.out2_1
  rw [View.canon_unit_zero hz]
  simp only [View.ld_unit_zero (S := S10000x32) hz]
  funext j
  obtain ⟨p, q, rfl⟩ : ∃ (p : Fin 10000) (q : Fin 32), j = ix2 p q := ⟨j 0, j 1, eq_ix2 j⟩
  show Gen.k2_pay1 (F := Ideal) (Gen.iblk2 (F := Ideal) V c 0 t) (ix2 p q)
    = Cert.Spec.logSoftmax (F := Ideal) (V c main_v114) (((cfg2.win 1).blk t).view.emb (ix2 p q))
  refine (pay_apply _ p q).trans ?_
  refine Eq.trans ?_ (congrArg (Cert.Spec.logSoftmax (F := Ideal) (V c main_v114)) (emb_out t p q)).symm
  refine Eq.trans ?_ (logSoftmax_apply (V c main_v114) (rowOf t p) q).symm
  exact congrArg (fun row : Fin 32 → EReal => rowLs row q) (funext fun k => iblk_apply V c t p k)

/-- An index of the array is in point `t`'s block iff each coordinate is in the block's range on its axis. -/
theorem mem_blk (t : Fin cfg2.N) (i : S100000x32.Idx) :
    i ∈ ((cfg2.win 1).blk t).view.set ↔ ∀ a : Fin 2, win2_1.index t a * S10000x32.size a ≤ (i a).val ∧ (i a).val < win2_1.index t a * S10000x32.size a + S10000x32.size a := by
  show i ∈ ((View.whole main_v115).slice (win2_1.rect t)).set ↔ _
  rw [View.set_slice_whole, Rect.mem_set_unit]
  exact Iff.rfl

/-- Every row of the array is in the block of the point `row / 10000`, which writes back. -/
theorem cover (i : S100000x32.Idx) :
    ∃ t : Fin cfg2.N, (cfg2.win 1).flush t = true ∧ i ∈ ((cfg2.win 1).blk t).view.set := by
  have hi0 : (i 0).val < 100000 := (i 0).isLt
  have hi1 : (i 1).val < 32 := (i 1).isLt
  obtain ⟨t, ht⟩ : ∃ t : Fin cfg2.N, t.val = (i 0).val / 10000 :=
    ⟨⟨(i 0).val / 10000, lt_of_lt_of_eq (by omega : (i 0).val / 10000 < 10) Gen.N_2.symm⟩, rfl⟩
  obtain ⟨-, -, e2, e3⟩ := idx_facts t
  refine ⟨t, Gen.flush2_1 t, ?_⟩
  rw [mem_blk]
  intro a
  match a with
  | ⟨0, _⟩ =>
    show win2_1.index t (0 : Fin 2) * 10000 ≤ (i 0).val ∧ (i 0).val < win2_1.index t (0 : Fin 2) * 10000 + 10000
    rw [e2, ht]; omega
  | ⟨1, _⟩ =>
    show win2_1.index t (1 : Fin 2) * 32 ≤ (i 1).val ∧ (i 1).val < win2_1.index t (1 : Fin 2) * 32 + 32
    rw [e3]; omega

/-- THE ARRAY after the region: the log-softmax, row by row, of the input array as the region finds it. -/
theorem ls_arr (c : Dev nD) :
    (Gen.dat2 (F := Ideal) V c).arrAt 1 cfg2.N = Cert.Spec.logSoftmax (F := Ideal) (V c main_v114) :=
  (Gen.dat2 (F := Ideal) V c).arrAt_eq_of_cover 1 (Cert.Spec.logSoftmax (F := Ideal) (V c main_v114))
    (fun t _ => flushed_eq V c t) cover

end Blocks

end Cert.KernelIdeal.RegionLs
end
-- ==== Proof.HostBridge.lean ====
/-
  The two stretches of graph propagation are the same operations in both programs.

  Between its kernel regions the kernel program runs, on the host, the very operations the reference runs between its
  dense stages: the degrees and their inverse square roots, the edge orientation, the gathers and scatter-adds of the
  propagation. So from memories that agree on what a stretch reads — the encoder's output and the two edge arrays for
  the first stretch; the projected rows, the two edge weights, the two oriented endpoint arrays and the smoothed
  features for the second — the two programs' stretches leave equal contents in every buffer the later stages read.
  Both sides are read as the composition of their operations and compared as they stand; no propagation operation is
  opened.
-/
import proofs.«137047_j59021440582159_1_alg».proof.Proof.RefStages
import proofs.«137047_j59021440582159_1_alg».proof.Proof.Gen.KernelIdeal.Launch
import Idealize.ShloMosaic.PureOps.Ideal

noncomputable section

namespace Cert.HostBridge

open Idealize.ShloMosaic Idealize.ShloMosaic.TcCoe Idealize.SL.Sem Idealize.ShloMosaic.StableHlo

set_option maxRecDepth 16384 in
set_option maxHeartbeats 16000000 in
/-- The first stretch: from the encoder's output and the edge arrays to the zero rows, δ, the two edge weights, the two
    oriented endpoint arrays and the smoothed features. -/
theorem host1 (W : Valuation Cert.KernelIdeal.τ Cert.KernelIdeal.sig (Elt Ideal)) (M : Valuation Cert.ReferenceIdeal.τ Cert.ReferenceIdeal.sig (Elt Ideal))
    (hx : W (Proc.devRef .tc Cert.KernelIdeal.main_v0) = M (Proc.devRef .tc Cert.ReferenceIdeal.main_v9))
    (h5 : W (Proc.devRef .tc Cert.KernelIdeal.main_arg5) = M (Proc.devRef .tc Cert.ReferenceIdeal.main_arg5))
    (h6 : W (Proc.devRef .tc Cert.KernelIdeal.main_arg6) = M (Proc.devRef .tc Cert.ReferenceIdeal.main_arg6)) :
    after (Cert.KernelIdeal.Gen.hostOps1 (F := Ideal)) W (Proc.devRef .tc Cert.KernelIdeal.main_v46) = after (Cert.ReferenceIdeal.Stages.opsB (F := Ideal)) M (Proc.devRef .tc Cert.ReferenceIdeal.main_v55)
    ∧ after (Cert.KernelIdeal.Gen.hostOps1 (F := Ideal)) W (Proc.devRef .tc Cert.KernelIdeal.main_v99) = after (Cert.ReferenceIdeal.Stages.opsB (F := Ideal)) M (Proc.devRef .tc Cert.ReferenceIdeal.main_v108)
    ∧ after (Cert.KernelIdeal.Gen.hostOps1 (F := Ideal)) W (Proc.devRef .tc Cert.KernelIdeal.main_v19) = after (Cert.ReferenceIdeal.Stages.opsB (F := Ideal)) M (Proc.devRef .tc Cert.ReferenceIdeal.main_v28)
    ∧ after (Cert.KernelIdeal.Gen.hostOps1 (F := Ideal)) W (Proc.devRef .tc Cert.KernelIdeal.main_v27) = after (Cert.ReferenceIdeal.Stages.opsB (F := Ideal)) M (Proc.devRef .tc Cert.ReferenceIdeal.main_v36)
    ∧ after (Cert.KernelIdeal.Gen.hostOps1 (F := Ideal)) W (Proc.devRef .tc Cert.KernelIdeal.main_v10) = after (Cert.ReferenceIdeal.Stages.opsB (F := Ideal)) M (Proc.devRef .tc Cert.ReferenceIdeal.main_v19)
    ∧ after (Cert.KernelIdeal.Gen.hostOps1 (F := Ideal)) W (Proc.devRef .tc Cert.KernelIdeal.main_v11) = after (Cert.ReferenceIdeal.Stages.opsB (F := Ideal)) M (Proc.devRef .tc Cert.ReferenceIdeal.main_v20)
    ∧ after (Cert.KernelIdeal.Gen.hostOps1 (F := Ideal)) W (Proc.devRef .tc Cert.KernelIdeal.main_v66) = after (Cert.ReferenceIdeal.Stages.opsB (F := Ideal)) M (Proc.devRef .tc Cert.ReferenceIdeal.main_v75) := by
  simp only [Cert.ReferenceIdeal.Stages.opsB, Cert.ReferenceIdeal.ValueP.ops, Cert.KernelIdeal.Gen.hostOps1, List.take_succ_cons, List.take_zero, List.drop_succ_cons, List.drop_zero]
  after_results_simp
  repeat (rw [binary_result_ne]; rotate_left; decide)
  rw [hx, h5, h6]
  refine ⟨?_, ?_, ?_, ?_, ?_, ?_, ?_⟩ <;> first | exact trivial | rfl

set_option maxRecDepth 16384 in
set_option maxHeartbeats 4000000 in
/-- The second stretch: from the projected rows, the edge weights, the endpoint arrays and the smoothed features to the
    features the log-softmax reads. -/
theorem host2 (W : Valuation Cert.KernelIdeal.τ Cert.KernelIdeal.sig (Elt Ideal)) (M : Valuation Cert.ReferenceIdeal.τ Cert.ReferenceIdeal.sig (Elt Ideal))
    (hz : W (Proc.devRef .tc Cert.KernelIdeal.main_v100) = M (Proc.devRef .tc Cert.ReferenceIdeal.main_v121))
    (hdi : W (Proc.devRef .tc Cert.KernelIdeal.main_v19) = M (Proc.devRef .tc Cert.ReferenceIdeal.main_v28))
    (hdj : W (Proc.devRef .tc Cert.KernelIdeal.main_v27) = M (Proc.devRef .tc Cert.ReferenceIdeal.main_v36))
    (hi : W (Proc.devRef .tc Cert.KernelIdeal.main_v10) = M (Proc.devRef .tc Cert.ReferenceIdeal.main_v19))
    (hj : W (Proc.devRef .tc Cert.KernelIdeal.main_v11) = M (Proc.devRef .tc Cert.ReferenceIdeal.main_v20))
    (hy : W (Proc.devRef .tc Cert.KernelIdeal.main_v66) = M (Proc.devRef .tc Cert.ReferenceIdeal.main_v75)) :
    after (Cert.KernelIdeal.Gen.hostOps2 (F := Ideal)) W (Proc.devRef .tc Cert.KernelIdeal.main_v114) = after (Cert.ReferenceIdeal.Stages.opsD (F := Ideal)) M (Proc.devRef .tc Cert.ReferenceIdeal.main_v135) := by
  simp only [Cert.ReferenceIdeal.Stages.opsD, Cert.ReferenceIdeal.ValueP.ops, Cert.KernelIdeal.Gen.hostOps2, List.take_succ_cons, List.take_zero, List.drop_succ_cons, List.drop_zero]
  after_results_simp
  rw [hz, hdi, hdj, hi, hj, hy]
  rfl

end Cert.HostBridge

end
-- ==== Proof.Assembly.lean ====
/-
  The kernel program's result is the reference's result.

  Both programs compute, from the same arguments: the encoder; a stretch of graph propagation; the row projection of
  z + 2·δ; a second stretch of propagation; the row-wise log-softmax. The kernel program runs the three dense stages as
  kernel regions and the two stretches on the host; the reference runs all five on the host. Stage by stage the two
  memories agree on what the next stage reads: each region leaves its output array at the stage's function of the
  arrays it read, the reference's stage leaves the same function of its buffers, and the two stretches of propagation
  are the same operations. So the kernel program's result buffer after its last region holds what the reference's
  result buffer holds after its last operation.
-/
import proofs.«137047_j59021440582159_1_alg».proof.Proof.RunNamed
import proofs.«137047_j59021440582159_1_alg».proof.Proof.RefStages
import proofs.«137047_j59021440582159_1_alg».proof.Proof.RegionMlp
import proofs.«137047_j59021440582159_1_alg».proof.Proof.RegionL21
import proofs.«137047_j59021440582159_1_alg».proof.Proof.RegionLs
import proofs.«137047_j59021440582159_1_alg».proof.Proof.HostBridge

noncomputable section

namespace Cert.Assembly

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)
variable (m' : (ℓ : Loc Cert.ReferenceIdeal.nD Cert.ReferenceIdeal.τ Cert.ReferenceIdeal.sig) → Buf (Elt Ideal) ℓ)

/-! ## The reference's memory at its stage boundaries -/

/-- At launch. -/
abbrev M0 : Valuation Cert.ReferenceIdeal.τ Cert.ReferenceIdeal.sig (Elt Ideal) := launchContents m' c
/-- After the encoder. -/
abbrev M1 : Valuation Cert.ReferenceIdeal.τ Cert.ReferenceIdeal.sig (Elt Ideal) := after (Cert.ReferenceIdeal.Stages.opsA (F := Ideal)) (M0 c m')
/-- After the first stretch of propagation. -/
abbrev M2 : Valuation Cert.ReferenceIdeal.τ Cert.ReferenceIdeal.sig (Elt Ideal) := after (Cert.ReferenceIdeal.Stages.opsB (F := Ideal)) (M1 c m')
/-- After the row projection. -/
abbrev M3 : Valuation Cert.ReferenceIdeal.τ Cert.ReferenceIdeal.sig (Elt Ideal) := after (Cert.ReferenceIdeal.Stages.opsC (F := Ideal)) (M2 c m')
/-- After the second stretch of propagation. -/
abbrev M4 : Valuation Cert.ReferenceIdeal.τ Cert.ReferenceIdeal.sig (Elt Ideal) := after (Cert.ReferenceIdeal.Stages.opsD (F := Ideal)) (M3 c m')

/-! ## The kernel program's regions, read at their output arrays -/

/-- Region 0 leaves the encoder of the argument arrays in its output array. -/
theorem k_x : W1 m ρ c (Proc.devRef .tc main_v0)
    = Cert.Spec.mlp (F := Ideal) (m ((c : Thread nD τ).loc main_arg0)) (m ((c : Thread nD τ).loc main_arg1)) (m ((c : Thread nD τ).loc main_arg2))
        (m ((c : Thread nD τ).loc main_arg3)) (m ((c : Thread nD τ).loc main_arg4)) :=
  (W1_arr m ρ c 5).trans (Cert.KernelIdeal.RegionMlp.mlp_arr (V0 m ρ) c)

/-- Region 0 leaves the edge arrays as launched. -/
theorem k_arg5 : W1 m ρ c (Proc.devRef .tc main_arg5) = m ((c : Thread nD τ).loc main_arg5) := W1_of_ne m ρ c main_arg5 (by decide)
theorem k_arg6 : W1 m ρ c (Proc.devRef .tc main_arg6) = m ((c : Thread nD τ).loc main_arg6) := W1_of_ne m ρ c main_arg6 (by decide)

/-- Region 1 leaves the row projection of what the first stretch left in its two input arrays. -/
theorem k_z : W3 m ρ c (Proc.devRef .tc main_v100)
    = Cert.Spec.l21 (F := Ideal) (after (hostOps1 (F := Ideal)) (W1 m ρ c) (Proc.devRef .tc main_v46)) (after (hostOps1 (F := Ideal)) (W1 m ρ c) (Proc.devRef .tc main_v99)) :=
  (W3_arr m ρ c 2).trans (Cert.KernelIdeal.RegionL21.l21_arr (V2 m ρ) c)

/-- Region 1 writes none of the other buffers the second stretch reads. -/
theorem k_keep (b : Ref sig .tc) (hb : ∀ w, Pipeline.arrRef spec1 w ≠ b) :
    W3 m ρ c (Proc.devRef .tc b) = after (hostOps1 (F := Ideal)) (W1 m ρ c) (Proc.devRef .tc b) := W3_of_ne m ρ c b hb

/-- Region 2 leaves the log-softmax of what the second stretch left in its input array. -/
theorem k_out : W5 m ρ c (Proc.devRef .tc main_v115)
    = Cert.Spec.logSoftmax (F := Ideal) (after (hostOps2 (F := Ideal)) (W3 m ρ c) (Proc.devRef .tc main_v114)) :=
  (W5_arr m ρ c 1).trans (Cert.KernelIdeal.RegionLs.ls_arr (V4 m ρ) c)

/-! ## Stage by stage -/

/-- From memories agreeing on the arguments, the kernel program's result after its last region is the reference's
    result after its last operation. -/
theorem result_eq
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    W5 m ρ c (Proc.devRef .tc main_v115)
      = after (Cert.ReferenceIdeal.ValueP.ops (F := Ideal)) (launchContents m' c) (Proc.devRef .tc Cert.ReferenceIdeal.main_v136) := by
  -- the encoder
  have ex : W1 m ρ c (Proc.devRef .tc main_v0) = M1 c m' (Proc.devRef .tc Cert.ReferenceIdeal.main_v9) := by
    refine (k_x m ρ c).trans ?_
    refine Eq.trans ?_ (Cert.ReferenceIdeal.Stages.stageA_x (M0 c m')).symm
    show _ = Cert.Spec.mlp (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
    rw [h0, h1, h2, h3, h4]
  have e5 : W1 m ρ c (Proc.devRef .tc main_arg5) = M1 c m' (Proc.devRef .tc Cert.ReferenceIdeal.main_arg5) :=
    (k_arg5 m ρ c).trans (h5.symm.trans (Cert.ReferenceIdeal.Stages.stageA_arg5 (M0 c m')).symm)
  have e6 : W1 m ρ c (Proc.devRef .tc main_arg6) = M1 c m' (Proc.devRef .tc Cert.ReferenceIdeal.main_arg6) :=
    (k_arg6 m ρ c).trans (h6.symm.trans (Cert.ReferenceIdeal.Stages.stageA_arg6 (M0 c m')).symm)
  -- the first stretch of propagation
  obtain ⟨b0, bd, bdi, bdj, bi, bj, by_⟩ := Cert.HostBridge.host1 (W1 m ρ c) (M1 c m') ex e5 e6
  -- the row projection
  obtain ⟨cdi, cdj, ci, cj, cy⟩ := Cert.ReferenceIdeal.Stages.stageC_kept (M2 c m')
  have ez : W3 m ρ c (Proc.devRef .tc main_v100) = M3 c m' (Proc.devRef .tc Cert.ReferenceIdeal.main_v121) := by
    refine (k_z m ρ c).trans ?_
    refine Eq.trans ?_ (Cert.ReferenceIdeal.Stages.stageC_z (M2 c m')).symm
    rw [b0, bd]
  have edi : W3 m ρ c (Proc.devRef .tc main_v19) = M3 c m' (Proc.devRef .tc Cert.ReferenceIdeal.main_v28) :=
    (k_keep m ρ c main_v19 (by decide)).trans (bdi.trans cdi.symm)
  have edj : W3 m ρ c (Proc.devRef .tc main_v27) = M3 c m' (Proc.devRef .tc Cert.ReferenceIdeal.main_v36) :=
    (k_keep m ρ c main_v27 (by decide)).trans (bdj.trans cdj.symm)
  have ei : W3 m ρ c (Proc.devRef .tc main_v10) = M3 c m' (Proc.devRef .tc Cert.ReferenceIdeal.main_v19) :=
    (k_keep m ρ c main_v10 (by decide)).trans (bi.trans ci.symm)
  have ej : W3 m ρ c (Proc.devRef .tc main_v11) = M3 c m' (Proc.devRef .tc Cert.ReferenceIdeal.main_v20) :=
    (k_keep m ρ c main_v11 (by decide)).trans (bj.trans cj.symm)
  have ey : W3 m ρ c (Proc.devRef .tc main_v66) = M3 c m' (Proc.devRef .tc Cert.ReferenceIdeal.main_v75) :=
    (k_keep m ρ c main_v66 (by decide)).trans (by_.trans cy.symm)
  -- the second stretch of propagation
  have e2 := Cert.HostBridge.host2 (W3 m ρ c) (M3 c m') ez edi edj ei ej ey
  -- the log-softmax
  refine (k_out m ρ c).trans ?_
  rw [e2, Cert.ReferenceIdeal.Stages.after_split (launchContents m' c)]
  exact (Cert.ReferenceIdeal.Stages.stageE_out (M4 c m')).symm

end Cert.Assembly

end
-- ==== Proof.lean ====
/-
  The certificate: the kernel program and its jnp reference compute one function on the extended reals.

  The computation is a graph network's forward pass over 100000 nodes and 1600000 edges: an encoder
  relu (feat · W1 + b1) · W2 + b2; one step of elastic message passing — the degree-normalised smoothing of the
  encoded features, the edge quantity δ from their differences across each edge, the projection of every row of
  z + 2·δ onto the ball of radius 3, and the projected rows scattered back to the nodes —; and a row-wise
  log-softmax. The kernel program runs the encoder, the row projection and the log-softmax as three kernel regions,
  blocks of 5000, 8000 and 10000 rows at a time, and the propagation between them on the host; the reference runs
  everything on the host.

  Read at the extended reals the two agree stage by stage. A region's blocks are restrictions of one whole-array
  function, the rows of a block depending only on the same rows of the inputs, and the blocks cover the array; at an
  index that function is the reference's stage: a matrix product into the zero accumulator is the plain sum of
  products, a change of float format is the identity, a lane sum is the host's sum, a row maximum from −∞ is the host's
  maximum (one more maximum with −∞ changes nothing). The propagation between the regions is the same list of host
  operations in both programs and is never opened. No law that needs finiteness is used: the claim's precondition is
  not opened.

  The three frames: the two kernel programs' by their generated frame certificates, the reference's by its run with
  the result dropped. The kernel's idealization rewrote no operation, so there is nothing to preserve.
-/
import proofs.«137047_j59021440582159_1_alg».proof.Defs
import proofs.«137047_j59021440582159_1_alg».proof.Proof.Gen.Kernel
import proofs.«137047_j59021440582159_1_alg».proof.Proof.Gen.Kernel.Skeleton
import proofs.«137047_j59021440582159_1_alg».proof.Proof.Gen.Kernel.Launch
import proofs.«137047_j59021440582159_1_alg».proof.Proof.Gen.Kernel.Points
import proofs.«137047_j59021440582159_1_alg».proof.Proof.Gen.Kernel.Frame
import proofs.«137047_j59021440582159_1_alg».proof.Proof.Gen.KernelIdeal
import proofs.«137047_j59021440582159_1_alg».proof.Proof.Gen.KernelIdeal.Skeleton
import proofs.«137047_j59021440582159_1_alg».proof.Proof.Gen.KernelIdeal.Launch
import proofs.«137047_j59021440582159_1_alg».proof.Proof.Gen.KernelIdeal.Points
import proofs.«137047_j59021440582159_1_alg».proof.Proof.Gen.KernelIdeal.Frame
import proofs.«137047_j59021440582159_1_alg».proof.Proof.Gen.ReferenceIdeal
import proofs.«137047_j59021440582159_1_alg».proof.Proof.Gen.Pre_finite_inputs
import proofs.«137047_j59021440582159_1_alg».proof.Proof.Assembly
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Stages.run_after (F := Ideal) m ρ)

/-- The idealization rewrote no operation. -/
theorem preserves : Cert.preserves_Kernel_KernelIdeal := trivial

/-- From memories agreeing on the arguments both programs run, and the reference's result is the kernel program's:
    what its result buffer holds at the last region's exit. -/
theorem algebraic : Cert.algebraic_KernelIdeal_ReferenceIdeal := by
  intro m ρ m' ρ' _ hagree
  refine ⟨fun c => Cert.KernelIdeal.Gen.W5 (F := Ideal) m ρ c (Proc.devRef .tc Cert.KernelIdeal.main_v115),
    Cert.KernelIdeal.RunNamed.run_named (F := Ideal) m ρ, ?_⟩
  refine (θ_run Cert.ReferenceIdeal.defs _ _).mono (fun _ h c => ⟨(h c).1.trans ?_, (h c).2⟩)
    (Cert.ReferenceIdeal.Stages.run_after (F := Ideal) m' ρ')
  obtain ⟨h0, h1, h2, h3, h4, h5, h6⟩ := hagree c
  exact (Cert.Assembly.result_eq m ρ c m' h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
